-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x9 : Shape := ⟨2, ![16, 9]⟩
abbrev S9 : Shape := ⟨1, ![9]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x9 : S_.BroadcastsInDim S16x9 (![] : Fin 0 → Fin S16x9.rank)
  reducesTo_S16x9_S_d0_1 : S16x9.ReducesTo [0, 1] S_
  bcast_S_S9 : S_.BroadcastsInDim S9 (![] : Fin 0 → Fin S9.rank)
  reducesTo_S9_S_d0 : S9.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S16x9 .f32) (main_arg13 : FVec F S16x9 .f32) (main_arg14 : FVec F S9 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x9 .f32 := Host.absf main_arg12
  let main_cst_20 : FVec F S_ .f32 := constant S_ .f32 0x7F800000#32
  let main_v55 : FVec F S16x9 .f32 := broadcastInDim S16x9 ![] bcast_S_S16x9 main_cst_20
  let main_v56 : IVec S16x9 1 := cmpf .olt main_v54 main_v55
  let main_c_21 : IVec S_ 1 := constantI S_ 1 1#1
  let main_v57 : IVec S_ 1 := (fun x v => Host.reduce IntOp.andi x v reducesTo_S16x9_S_d0_1 h_S_) main_v56 main_c_21
  let main_v58 : IVec S_ 1 := andi main_v53 main_v57
  let main_v59 : FVec F S16x9 .f32 := Host.absf main_arg13
  let main_cst_22 : FVec F S_ .f32 := constant S_ .f32 0x7F800000#32
  let main_v60 : FVec F S16x9 .f32 := broadcastInDim S16x9 ![] bcast_S_S16x9 main_cst_22
  let main_v61 : IVec S16x9 1 := cmpf .olt main_v59 main_v60
  let main_c_23 : IVec S_ 1 := constantI S_ 1 1#1
  let main_v62 : IVec S_ 1 := (fun x v => Host.reduce IntOp.andi x v reducesTo_S16x9_S_d0_1 h_S_) main_v61 main_c_23
  let main_v63 : IVec S_ 1 := andi main_v58 main_v62
  let main_v64 : FVec F S9 .f32 := Host.absf main_arg14
  let main_cst_24 : FVec F S_ .f32 := constant S_ .f32 0x7F800000#32
  let main_v65 : FVec F S9 .f32 := broadcastInDim S9 ![] bcast_S_S9 main_cst_24
  let main_v66 : IVec S9 1 := cmpf .olt main_v64 main_v65
  let main_c_25 : IVec S_ 1 := constantI S_ 1 1#1
  let main_v67 : IVec S_ 1 := (fun x v => Host.reduce IntOp.andi x v reducesTo_S9_S_d0 h_S_) main_v66 main_c_25
  fn_part4 (F := F) main_v63 main_v67

def fn_part2 {F : FTy → Type} [FloatOps F] (main_arg8 : FVec F S32 .f32) (main_arg9 : FVec F S32x16 .f32) (main_arg10 : FVec F S32x16 .f32) (main_arg11 : FVec F S16 .f32) (main_arg12 : FVec F S16x9 .f32) (main_arg13 : FVec F S16x9 .f32) (main_arg14 : FVec F S9 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg9
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_v48 main_v49 main_v50

def fn_part1 {F : FTy → Type} [FloatOps F] (main_arg5 : FVec F S64 .f32) (main_arg6 : FVec F S64x32 .f32) (main_arg7 : FVec F S64x32 .f32) (main_arg8 : FVec F S32 .f32) (main_arg9 : FVec F S32x16 .f32) (main_arg10 : FVec F S32x16 .f32) (main_arg11 : FVec F S16 .f32) (main_arg12 : FVec F S16x9 .f32) (main_arg13 : FVec F S16x9 .f32) (main_arg14 : FVec F S9 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x600000 32) (main_arg2 : FVec F S600000 .f32) (main_arg3 : FVec F S128x64 .f32) (main_arg4 : FVec F S128x64 .f32) (main_arg5 : FVec F S64 .f32) (main_arg6 : FVec F S64x32 .f32) (main_arg7 : FVec F S64x32 .f32) (main_arg8 : FVec F S32 .f32) (main_arg9 : FVec F S32x16 .f32) (main_arg10 : FVec F S32x16 .f32) (main_arg11 : FVec F S16 .f32) (main_arg12 : FVec F S16x9 .f32) (main_arg13 : FVec F S16x9 .f32) (main_arg14 : FVec F S9 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x9 : Shape := ⟨2, ![16, 9]⟩
abbrev S9 : Shape := ⟨1, ![9]⟩
abbrev S1x600000 : Shape := ⟨2, ![1, 600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S600000x64 : Shape := ⟨2, ![600000, 64]⟩
abbrev S1x32 : Shape := ⟨2, ![1, 32]⟩
abbrev S100000x32 : Shape := ⟨2, ![100000, 32]⟩
abbrev S2000x32 : Shape := ⟨2, ![2000, 32]⟩
abbrev S600000x32 : Shape := ⟨2, ![600000, 32]⟩
abbrev S1x16 : Shape := ⟨2, ![1, 16]⟩
abbrev S100000x16 : Shape := ⟨2, ![100000, 16]⟩
abbrev S2000x16 : Shape := ⟨2, ![2000, 16]⟩
abbrev S600000x16 : Shape := ⟨2, ![600000, 16]⟩
abbrev S1x9 : Shape := ⟨2, ![1, 9]⟩
abbrev S100000x9 : Shape := ⟨2, ![100000, 9]⟩
abbrev S2000x9 : Shape := ⟨2, ![2000, 9]⟩

abbrev nBuf : Space → Nat
  | .hbm => 100
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S32x16, .f32⟩
  | .hbm, ⟨11, _⟩ => ⟨S16, .f32⟩
  | .hbm, ⟨12, _⟩ => ⟨S16x9, .f32⟩
  | .hbm, ⟨13, _⟩ => ⟨S16x9, .f32⟩
  | .hbm, ⟨14, _⟩ => ⟨S9, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S100000, .f32⟩
  | .hbm, ⟨23, _⟩ => ⟨S600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S100000x128, .f32⟩
  | .hbm, ⟨43, _⟩ => ⟨S600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x64, .f32⟩
  | .hbm, ⟨58, _⟩ => ⟨S_, .f32⟩
  | .hbm, ⟨59, _⟩ => ⟨S100000x64, .f32⟩
  | .hbm, ⟨60, _⟩ => ⟨S600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x32, .f32⟩
  | .hbm, ⟨65, _⟩ => ⟨S100000x32, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x32, .f32⟩
  | .hbm, ⟨75, _⟩ => ⟨S_, .f32⟩
  | .hbm, ⟨76, _⟩ => ⟨S100000x32, .f32⟩
  | .hbm, ⟨77, _⟩ => ⟨S600000x1, .i32⟩
  | .hbm, ⟨78, _⟩ => ⟨S100000x32, .f32⟩
  | .hbm, ⟨79, _⟩ => ⟨S100000x32, .f32⟩
  | .hbm, ⟨80, _⟩ => ⟨S100000x32, .f32⟩
  | .hbm, ⟨81, _⟩ => ⟨S1x16, .f32⟩
  | .hbm, ⟨82, _⟩ => ⟨S100000x16, .f32⟩
  | .hbm, ⟨83, _⟩ => ⟨S_, .i32⟩
  | .hbm, ⟨84, _⟩ => ⟨S600000, .i32⟩
  | .hbm, ⟨85, _⟩ => ⟨S600000, .i1⟩
  | .hbm, ⟨86, _⟩ => ⟨S_, .i32⟩
  | .hbm, ⟨87, _⟩ => ⟨S600000, .i32⟩
  | .hbm, ⟨88, _⟩ => ⟨S600000, .i32⟩
  | .hbm, ⟨89, _⟩ => ⟨S600000, .i32⟩
  | .hbm, ⟨90, _⟩ => ⟨S600000x1, .i32⟩
  | .hbm, ⟨91, _⟩ => ⟨S600000x16, .f32⟩
  | .hbm, ⟨92, _⟩ => ⟨S_, .f32⟩
  | .hbm, ⟨93, _⟩ => ⟨S100000x16, .f32⟩
  | .hbm, ⟨94, _⟩ => ⟨S600000x1, .i32⟩
  | .hbm, ⟨95, _⟩ => ⟨S100000x16, .f32⟩
  | .hbm, ⟨96, _⟩ => ⟨S100000x16, .f32⟩
  | .hbm, ⟨97, _⟩ => ⟨S100000x16, .f32⟩
  | .hbm, ⟨98, _⟩ => ⟨S1x9, .f32⟩
  | .hbm, ⟨99, _⟩ => ⟨S100000x9, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S32x16, .f32⟩
  | .local _ .vmem, ⟨23, _⟩ => ⟨S32x16, .f32⟩
  | .local _ .vmem, ⟨24, _⟩ => ⟨S1x16, .f32⟩
  | .local _ .vmem, ⟨25, _⟩ => ⟨S2000x16, .f32⟩
  | .local _ .vmem, ⟨26, _⟩ => ⟨S2000x16, .f32⟩
  | .local _ .vmem, ⟨27, _⟩ => ⟨S2000x16, .f32⟩
  | .local _ .vmem, ⟨28, _⟩ => ⟨S2000x16, .f32⟩
  | .local _ .vmem, ⟨29, _⟩ => ⟨S2000x16, .f32⟩
  | .local _ .vmem, ⟨30, _⟩ => ⟨S2000x16, .f32⟩
  | .local _ .vmem, ⟨31, _⟩ => ⟨S16x9, .f32⟩
  | .local _ .vmem, ⟨32, _⟩ => ⟨S16x9, .f32⟩
  | .local _ .vmem, ⟨33, _⟩ => ⟨S1x9, .f32⟩
  | .local _ .vmem, ⟨34, _⟩ => ⟨S2000x9, .f32⟩
  | .local _ .vmem, ⟨35, _⟩ => ⟨S2000x9, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x9 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x9 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x9 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x9 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S16_S1x16 : S16.ShapeCasts S1x16
  shapeCasts_S2000x32_S2000x32 : S2000x32.ShapeCasts S2000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S9_S1x9 : S9.ShapeCasts S1x9
  shapeCasts_S2000x16_S2000x16 : S2000x16.ShapeCasts S2000x16
  inb_S16x9_S16x9_0_0 : ∀ a, (![0, 0] : Fin 2 → Nat) a + S16x9.size a ≤ S16x9.size a
  h_S16x9 : 0 < S16x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S2000x9 : S1x9.Broadcasts S2000x9
  inb_S2000x9_S2000x9_0_0 : ∀ a, (![0, 0] : Fin 2 → Nat) a + S2000x9.size a ≤ S2000x9.size a
  h_S2000x9 : 0 < S2000x9.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x64_S2000x64_1_0_0_1_n_n_wf : DotDims.WF S2000x128 S128x64 S2000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S2000x64_S64x32_S2000x32_1_0_0_1_n_n_wf : DotDims.WF S2000x64 S64x32 S2000x32 [1] [0] [0] [1] [] []
  gather_S100000x32_S600000x1_S600000x32_1_0_n_n_0_1_132_wf : GatherDims.WF S100000x32 S600000x1 S600000x32 [1] [0] [] [0] [] 1 ![1, 32]
  scatter_S100000x32_S600000x1_S600000x32_1_0_0_1_wf : ScatterDims.WF S100000x32 S600000x1 S600000x32 [1] [0] [0] 1
  dot_S2000x32_S32x16_S2000x16_1_0_0_1_n_n_wf : DotDims.WF S2000x32 S32x16 S2000x16 [1] [0] [0] [1] [] []
  gather_S100000x16_S600000x1_S600000x16_1_0_n_n_0_1_116_wf : GatherDims.WF S100000x16 S600000x1 S600000x16 [1] [0] [] [0] [] 1 ![1, 16]
  scatter_S100000x16_S600000x1_S600000x16_1_0_0_1_wf : ScatterDims.WF S100000x16 S600000x1 S600000x16 [1] [0] [0] 1
  dot_S2000x16_S16x9_S2000x9_1_0_0_1_n_n_wf : DotDims.WF S2000x16 S16x9 S2000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S100000x32.size a
  hwx1_5 : ∀ i : grid1.Coords, EltTy.bits .f32 = 32 ∨ (Rect.block (s := S100000x32) S2000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x16.size a ≤ S100000x16.size a
  hwx2_5 : ∀ i : grid2.Coords, EltTy.bits .f32 = 32 ∨ (Rect.block (s := S100000x16) S2000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x16.size a ≤ S100000x16.size a
  hwx3_1 : ∀ i : grid3.Coords, EltTy.bits .f32 = 32 ∨ (Rect.block (s := S100000x16) S2000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x9.size a ≤ S16x9.size a
  hwx3_2 : ∀ i : grid3.Coords, EltTy.bits .f32 = 32 ∨ (Rect.block (s := S16x9) S16x9.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x9.size a ≤ S16x9.size a
  hwx3_3 : ∀ i : grid3.Coords, EltTy.bits .f32 = 32 ∨ (Rect.block (s := S16x9) S16x9.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x9.size a ≤ S1x9.size a
  hwx3_4 : ∀ i : grid3.Coords, EltTy.bits .f32 = 32 ∨ (Rect.block (s := S1x9) S1x9.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x9.size a ≤ S100000x9.size a
  hwx3_5 : ∀ i : grid3.Coords, EltTy.bits .f32 = 32 ∨ (Rect.block (s := S100000x9) S2000x9.size (cc3_transform_5 i) (hinb3_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S600000x1_S600000x32_1_0_n_n_0_1_132 : GatherDims S100000x32 S600000x1 S600000x32 where
  offsetDims := [1]
  collapsedSliceDims := [0]
  operandBatchingDims := []
  startIndicesBatchingDims := []
  startIndexMap := [0]
  indexVectorDim := 1
  sliceSizes := ![1, 32]
  wf := gather_S100000x32_S600000x1_S600000x32_1_0_n_n_0_1_132_wf
def scatter_S100000x32_S600000x1_S600000x32_1_0_0_1 : ScatterDims S100000x32 S600000x1 S600000x32 where
  updateWindowDims := [1]
  insertedWindowDims := [0]
  scatterDimsToOperandDims := [0]
  indexVectorDim := 1
  wf := scatter_S100000x32_S600000x1_S600000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S600000x1_S600000x16_1_0_n_n_0_1_116 : GatherDims S100000x16 S600000x1 S600000x16 where
  offsetDims := [1]
  collapsedSliceDims := [0]
  operandBatchingDims := []
  startIndicesBatchingDims := []
  startIndexMap := [0]
  indexVectorDim := 1
  sliceSizes := ![1, 16]
  wf := gather_S100000x16_S600000x1_S600000x16_1_0_n_n_0_1_116_wf
def scatter_S100000x16_S600000x1_S600000x16_1_0_0_1 : ScatterDims S100000x16 S600000x1 S600000x16 where
  updateWindowDims := [1]
  insertedWindowDims := [0]
  scatterDimsToOperandDims := [0]
  indexVectorDim := 1
  wf := scatter_S100000x16_S600000x1_S600000x16_1_0_0_1_wf
def dot_S2000x16_S16x9_S2000x9_1_0_0_1_n_n : DotDims S2000x16 S16x9 S2000x9 where
  lhsContracting := [1]
  rhsContracting := [0]
  lhsNonContracting := [0]
  rhsNonContracting := [1]
  lhsBatch := []
  rhsBatch := []
  wf := dot_S2000x16_S16x9_S2000x9_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S16x9.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S16x9.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x9.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S2000x9.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x9 : Shape := ⟨2, ![16, 9]⟩
abbrev S9 : Shape := ⟨1, ![9]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S100000x64 : Shape := ⟨2, ![100000, 64]⟩
abbrev S1x64 : Shape := ⟨2, ![1, 64]⟩
abbrev S600000x64 : Shape := ⟨2, ![600000, 64]⟩
abbrev S100000x32 : Shape := ⟨2, ![100000, 32]⟩
abbrev S1x32 : Shape := ⟨2, ![1, 32]⟩
abbrev S600000x32 : Shape := ⟨2, ![600000, 32]⟩
abbrev S100000x16 : Shape := ⟨2, ![100000, 16]⟩
abbrev S1x16 : Shape := ⟨2, ![1, 16]⟩
abbrev S600000x16 : Shape := ⟨2, ![600000, 16]⟩
abbrev S100000x9 : Shape := ⟨2, ![100000, 9]⟩
abbrev S1x9 : Shape := ⟨2, ![1, 9]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x600000, .i32⟩
  | 2 => ⟨S600000, .f32⟩
  | 3 => ⟨S128x64, .f32⟩
  | 4 => ⟨S128x64, .f32⟩
  | 5 => ⟨S64, .f32⟩
  | 6 => ⟨S64x32, .f32⟩
  | 7 => ⟨S64x32, .f32⟩
  | 8 => ⟨S32, .f32⟩
  | 9 => ⟨S32x16, .f32⟩
  | 10 => ⟨S32x16, .f32⟩
  | 11 => ⟨S16, .f32⟩
  | 12 => ⟨S16x9, .f32⟩
  | 13 => ⟨S16x9, .f32⟩
  | 14 => ⟨S9, .f32⟩
  | 15 => ⟨S1x600000, .i32⟩
  | 16 => ⟨S600000, .i32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S100000x128, .f32⟩
  | 30 => ⟨S600000x1, .i32⟩
  | 31 => ⟨S100000x128, .f32⟩
  | 32 => ⟨S_, .f32⟩
  | 33 => ⟨S600000x1, .f32⟩
  | 34 => ⟨S_, .f32⟩
  | 35 => ⟨S100000x1, .f32⟩
  | 36 => ⟨S600000x1, .i32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S100000x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x64, .f32⟩
  | 61 => ⟨S_, .f32⟩
  | 62 => ⟨S100000x64, .f32⟩
  | 63 => ⟨S600000x1, .i32⟩
  | 64 => ⟨S100000x64, .f32⟩
  | 65 => ⟨S_, .f32⟩
  | 66 => ⟨S600000x1, .f32⟩
  | 67 => ⟨S_, .f32⟩
  | 68 => ⟨S100000x1, .f32⟩
  | 69 => ⟨S600000x1, .i32⟩
  | 70 => ⟨S100000x1, .f32⟩
  | 71 => ⟨S_, .f32⟩
  | 72 => ⟨S100000x1, .f32⟩
  | 73 => ⟨S100000x1, .f32⟩
  | 74 => ⟨S100000x64, .f32⟩
  | 75 => ⟨S100000x64, .f32⟩
  | 76 => ⟨S100000x32, .f32⟩
  | 77 => ⟨S100000x32, .f32⟩
  | 78 => ⟨S100000x32, .f32⟩
  | 79 => ⟨S1x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x32, .f32⟩
  | 94 => ⟨S_, .f32⟩
  | 95 => ⟨S100000x32, .f32⟩
  | 96 => ⟨S600000x1, .i32⟩
  | 97 => ⟨S100000x32, .f32⟩
  | 98 => ⟨S_, .f32⟩
  | 99 => ⟨S600000x1, .f32⟩
  | 100 => ⟨S_, .f32⟩
  | 101 => ⟨S100000x1, .f32⟩
  | 102 => ⟨S600000x1, .i32⟩
  | 103 => ⟨S100000x1, .f32⟩
  | 104 => ⟨S_, .f32⟩
  | 105 => ⟨S100000x1, .f32⟩
  | 106 => ⟨S100000x1, .f32⟩
  | 107 => ⟨S100000x32, .f32⟩
  | 108 => ⟨S100000x32, .f32⟩
  | 109 => ⟨S100000x16, .f32⟩
  | 110 => ⟨S100000x16, .f32⟩
  | 111 => ⟨S100000x16, .f32⟩
  | 112 => ⟨S1x16, .f32⟩
  | 113 => ⟨S100000x16, .f32⟩
  | 114 => ⟨S100000x16, .f32⟩
  | 115 => ⟨S_, .f32⟩
  | 116 => ⟨S100000x16, .f32⟩
  | 117 => ⟨S100000x16, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x16, .f32⟩
  | 127 => ⟨S_, .f32⟩
  | _ => ⟨S100000x128, .f32⟩

abbrev hbmTy0_1 (i : Nat) : BufTy := match i % 128 with
  | 0 => ⟨S100000x16, .f32⟩
  | 1 => ⟨S600000x1, .i32⟩
  | 2 => ⟨S100000x16, .f32⟩
  | 3 => ⟨S_, .f32⟩
  | 4 => ⟨S600000x1, .f32⟩
  | 5 => ⟨S_, .f32⟩
  | 6 => ⟨S100000x1, .f32⟩
  | 7 => ⟨S600000x1, .i32⟩
  | 8 => ⟨S100000x1, .f32⟩
  | 9 => ⟨S_, .f32⟩
  | 10 => ⟨S100000x1, .f32⟩
  | 11 => ⟨S100000x1, .f32⟩
  | 12 => ⟨S100000x16, .f32⟩
  | 13 => ⟨S100000x16, .f32⟩
  | 14 => ⟨S100000x9, .f32⟩
  | 15 => ⟨S100000x9, .f32⟩
  | 16 => ⟨S100000x9, .f32⟩
  | 17 => ⟨S1x9, .f32⟩
  | 18 => ⟨S100000x9, .f32⟩
  | 19 => ⟨S100000x9, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_cst : Ref sig .tc := ⟨.hbm, 49, rfl⟩
abbrev main_call0_v0 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call1_cst : Ref sig .tc := ⟨.hbm, 82, rfl⟩
abbrev main_call1_v0 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_call2_cst : Ref sig .tc := ⟨.hbm, 115, rfl⟩
abbrev main_call2_v0 : Ref sig .tc := ⟨.hbm, 116, rfl⟩
abbrev main_v78 : Ref sig .tc := ⟨.hbm, 117, rfl⟩
abbrev main_c_16 : Ref sig .tc := ⟨.hbm, 118, rfl⟩
abbrev main_v79 : Ref sig .tc := ⟨.hbm, 119, rfl⟩
abbrev main_v80 : Ref sig .tc := ⟨.hbm, 120, rfl⟩
abbrev main_c_17 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x32_S100000x32_1_0_0_1_n_n_wf : DotDims.WF S100000x64 S64x32 S100000x32 [1] [0] [0] [1] [] []
  gather_S100000x32_S600000x1_S600000x32_1_0_n_n_0_1_132_wf : GatherDims.WF S100000x32 S600000x1 S600000x32 [1] [0] [] [0] [] 1 ![1, 32]
  scatter_S100000x32_S600000x1_S600000x32_1_0_0_1_wf : ScatterDims.WF S100000x32 S600000x1 S600000x32 [1] [0] [0] 1
  dot_S100000x32_S32x16_S100000x16_1_0_0_1_n_n_wf : DotDims.WF S100000x32 S32x16 S100000x16 [1] [0] [0] [1] [] []
  gather_S100000x16_S600000x1_S600000x16_1_0_n_n_0_1_116_wf : GatherDims.WF S100000x16 S600000x1 S600000x16 [1] [0] [] [0] [] 1 ![1, 16]
  scatter_S100000x16_S600000x1_S600000x16_1_0_0_1_wf : ScatterDims.WF S100000x16 S600000x1 S600000x16 [1] [0] [0] 1
  dot_S100000x16_S16x9_S100000x9_1_0_0_1_n_n_wf : DotDims.WF S100000x16 S16x9 S100000x9 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S600000x1_S600000x32_1_0_n_n_0_1_132 : GatherDims S100000x32 S600000x1 S600000x32 where
  offsetDims := [1]
  collapsedSliceDims := [0]
  operandBatchingDims := []
  startIndicesBatchingDims := []
  startIndexMap := [0]
  indexVectorDim := 1
  sliceSizes := ![1, 32]
  wf := gather_S100000x32_S600000x1_S600000x32_1_0_n_n_0_1_132_wf
def scatter_S100000x32_S600000x1_S600000x32_1_0_0_1 : ScatterDims S100000x32 S600000x1 S600000x32 where
  updateWindowDims := [1]
  insertedWindowDims := [0]
  scatterDimsToOperandDims := [0]
  indexVectorDim := 1
  wf := scatter_S100000x32_S600000x1_S600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S600000x1_S600000x16_1_0_n_n_0_1_116 : GatherDims S100000x16 S600000x1 S600000x16 where
  offsetDims := [1]
  collapsedSliceDims := [0]
  operandBatchingDims := []
  startIndicesBatchingDims := []
  startIndexMap := [0]
  indexVectorDim := 1
  sliceSizes := ![1, 16]
  wf := gather_S100000x16_S600000x1_S600000x16_1_0_n_n_0_1_116_wf
def scatter_S100000x16_S600000x1_S600000x16_1_0_0_1 : ScatterDims S100000x16 S600000x1 S600000x16 where
  updateWindowDims := [1]
  insertedWindowDims := [0]
  scatterDimsToOperandDims := [0]
  indexVectorDim := 1
  wf := scatter_S100000x16_S600000x1_S600000x16_1_0_0_1_wf
def dot_S100000x16_S16x9_S100000x9_1_0_0_1_n_n : DotDims S100000x16 S16x9 S100000x9 where
  lhsContracting := [1]
  rhsContracting := [0]
  lhsNonContracting := [0]
  rhsNonContracting := [1]
  lhsBatch := []
  rhsBatch := []
  wf := dot_S100000x16_S16x9_S100000x9_1_0_0_1_n_n_wf

class Facts : Prop extends Facts₀ where

variable [Facts]
-- ==== Proof.KernelWhole.lean ====
/-
  The idealized kernel program run as a whole: its @main is four pipelined regions among four stretches of host
  operations, and every weakly fair execution of it from a memory with zero counters terminates without a fault in a
  state where every buffer outside the regions' scoped staging memory holds the last boundary's contents `Gen.W8`:
  the launch memory carried through each stretch's operations and each region's write-backs in turn. So the result
  buffer ends at `Gen.W8 … main_v68`, and each argument at its launch contents (`Gen.W8_main_arg0` …).

  The run is the library's theorem for a program of several regions (`Pipeline.θ_run_regions_kit`) over the program's
  eight segments, each entered from the thread state its predecessor leaves; the last thread state, read against the
  final memory, gives every unscoped buffer, the result's among them.
-/
import proofs.«136466_j6270652252188_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this statement, which needs plain
-- definitions unfolded inside a metavariable's type
set_option backward.isDefEq.respectTransparency.types false in
/-- Every weakly fair execution of @main terminates, nothing faulting, with the result buffer at the last boundary's
    contents and every argument array as launched. -/
theorem run_whole : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Whole

end
-- ==== Proof.KernelCarry.lean ====
/-
  The buffers the idealized kernel program computes once and reads again later, followed from boundary to boundary.
  Between its four regions the program's host operations write only their own result buffers, and a region writes only
  its result array; so the two vectors of edge words (`main_v1`: sources, `main_v3`: destinations) and the column of
  reciprocal in-degrees (`main_v12`) hold at every later boundary what the first stretch left in them, and each weight
  or bias argument holds its launch contents at the boundary where its layer reads it. (`Gen.Wk` is the memory at
  boundary `k`: odd `k` after a host stretch, even `k` after a region.)
-/
import proofs.«136466_j6270652252188_1_alg».proof.Proof.Gen.KernelIdeal.Frame
import Idealize.ShloMosaic.Lib.StableHlo.Run
import Idealize.ShloMosaic.PureOps.Ideal

set_option maxRecDepth 16384

noncomputable section

namespace Cert.KernelIdeal.Carry

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem at2_main_v1 : W2 m ρ c (Proc.devRef .tc main_v1) = W1 m ρ c (Proc.devRef .tc main_v1) :=
  (W2_of_ne m ρ c main_v1 (by decide))
theorem at3_main_v1 : W3 m ρ c (Proc.devRef .tc main_v1) = W1 m ρ c (Proc.devRef .tc main_v1) :=
  (show W3 m ρ c (Proc.devRef .tc main_v1) = W2 m ρ c (Proc.devRef .tc main_v1) by
    show StableHlo.after hostOps1 (W2 m ρ c) (Proc.devRef .tc main_v1) = _
    after_results_simp).trans (at2_main_v1 m ρ c)
theorem at4_main_v1 : W4 m ρ c (Proc.devRef .tc main_v1) = W1 m ρ c (Proc.devRef .tc main_v1) :=
  (W4_of_ne m ρ c main_v1 (by decide)).trans (at3_main_v1 m ρ c)
theorem at5_main_v1 : W5 m ρ c (Proc.devRef .tc main_v1) = W1 m ρ c (Proc.devRef .tc main_v1) :=
  (show W5 m ρ c (Proc.devRef .tc main_v1) = W4 m ρ c (Proc.devRef .tc main_v1) by
    show StableHlo.after hostOps2 (W4 m ρ c) (Proc.devRef .tc main_v1) = _
    after_results_simp).trans (at4_main_v1 m ρ c)
theorem at6_main_v1 : W6 m ρ c (Proc.devRef .tc main_v1) = W1 m ρ c (Proc.devRef .tc main_v1) :=
  (W6_of_ne m ρ c main_v1 (by decide)).trans (at5_main_v1 m ρ c)

theorem at2_main_v3 : W2 m ρ c (Proc.devRef .tc main_v3) = W1 m ρ c (Proc.devRef .tc main_v3) :=
  (W2_of_ne m ρ c main_v3 (by decide))
theorem at3_main_v3 : W3 m ρ c (Proc.devRef .tc main_v3) = W1 m ρ c (Proc.devRef .tc main_v3) :=
  (show W3 m ρ c (Proc.devRef .tc main_v3) = W2 m ρ c (Proc.devRef .tc main_v3) by
    show StableHlo.after hostOps1 (W2 m ρ c) (Proc.devRef .tc main_v3) = _
    after_results_simp).trans (at2_main_v3 m ρ c)
theorem at4_main_v3 : W4 m ρ c (Proc.devRef .tc main_v3) = W1 m ρ c (Proc.devRef .tc main_v3) :=
  (W4_of_ne m ρ c main_v3 (by decide)).trans (at3_main_v3 m ρ c)
theorem at5_main_v3 : W5 m ρ c (Proc.devRef .tc main_v3) = W1 m ρ c (Proc.devRef .tc main_v3) :=
  (show W5 m ρ c (Proc.devRef .tc main_v3) = W4 m ρ c (Proc.devRef .tc main_v3) by
    show StableHlo.after hostOps2 (W4 m ρ c) (Proc.devRef .tc main_v3) = _
    after_results_simp).trans (at4_main_v3 m ρ c)
theorem at6_main_v3 : W6 m ρ c (Proc.devRef .tc main_v3) = W1 m ρ c (Proc.devRef .tc main_v3) :=
  (W6_of_ne m ρ c main_v3 (by decide)).trans (at5_main_v3 m ρ c)

theorem at2_main_v12 : W2 m ρ c (Proc.devRef .tc main_v12) = W1 m ρ c (Proc.devRef .tc main_v12) :=
  (W2_of_ne m ρ c main_v12 (by decide))
theorem at3_main_v12 : W3 m ρ c (Proc.devRef .tc main_v12) = W1 m ρ c (Proc.devRef .tc main_v12) :=
  (show W3 m ρ c (Proc.devRef .tc main_v12) = W2 m ρ c (Proc.devRef .tc main_v12) by
    show StableHlo.after hostOps1 (W2 m ρ c) (Proc.devRef .tc main_v12) = _
    after_results_simp).trans (at2_main_v12 m ρ c)
theorem at4_main_v12 : W4 m ρ c (Proc.devRef .tc main_v12) = W1 m ρ c (Proc.devRef .tc main_v12) :=
  (W4_of_ne m ρ c main_v12 (by decide)).trans (at3_main_v12 m ρ c)
theorem at5_main_v12 : W5 m ρ c (Proc.devRef .tc main_v12) = W1 m ρ c (Proc.devRef .tc main_v12) :=
  (show W5 m ρ c (Proc.devRef .tc main_v12) = W4 m ρ c (Proc.devRef .tc main_v12) by
    show StableHlo.after hostOps2 (W4 m ρ c) (Proc.devRef .tc main_v12) = _
    after_results_simp).trans (at4_main_v12 m ρ c)
theorem at6_main_v12 : W6 m ρ c (Proc.devRef .tc main_v12) = W1 m ρ c (Proc.devRef .tc main_v12) :=
  (W6_of_ne m ρ c main_v12 (by decide)).trans (at5_main_v12 m ρ c)

theorem at1_main_arg0 : W1 m ρ c (Proc.devRef .tc main_arg0) = m ((c : Thread nD τ).loc main_arg0) := by
  show StableHlo.after hostOps0 (W0 m ρ c) (Proc.devRef .tc main_arg0) = _
  after_results_simp <;> rfl

theorem at1_main_arg3 : W1 m ρ c (Proc.devRef .tc main_arg3) = m ((c : Thread nD τ).loc main_arg3) := by
  show StableHlo.after hostOps0 (W0 m ρ c) (Proc.devRef .tc main_arg3) = _
  after_results_simp <;> rfl

theorem at1_main_arg4 : W1 m ρ c (Proc.devRef .tc main_arg4) = m ((c : Thread nD τ).loc main_arg4) := by
  show StableHlo.after hostOps0 (W0 m ρ c) (Proc.devRef .tc main_arg4) = _
  after_results_simp <;> rfl

theorem at1_main_arg6 : W1 m ρ c (Proc.devRef .tc main_arg6) = m ((c : Thread nD τ).loc main_arg6) := by
  show StableHlo.after hostOps0 (W0 m ρ c) (Proc.devRef .tc main_arg6) = _
  after_results_simp <;> rfl
theorem at2_main_arg6 : W2 m ρ c (Proc.devRef .tc main_arg6) = m ((c : Thread nD τ).loc main_arg6) :=
  (W2_of_ne m ρ c main_arg6 (by decide)).trans (at1_main_arg6 m ρ c)
theorem at3_main_arg6 : W3 m ρ c (Proc.devRef .tc main_arg6) = m ((c : Thread nD τ).loc main_arg6) :=
  (show W3 m ρ c (Proc.devRef .tc main_arg6) = W2 m ρ c (Proc.devRef .tc main_arg6) by
    show StableHlo.after hostOps1 (W2 m ρ c) (Proc.devRef .tc main_arg6) = _
    after_results_simp).trans (at2_main_arg6 m ρ c)

theorem at1_main_arg7 : W1 m ρ c (Proc.devRef .tc main_arg7) = m ((c : Thread nD τ).loc main_arg7) := by
  show StableHlo.after hostOps0 (W0 m ρ c) (Proc.devRef .tc main_arg7) = _
  after_results_simp <;> rfl
theorem at2_main_arg7 : W2 m ρ c (Proc.devRef .tc main_arg7) = m ((c : Thread nD τ).loc main_arg7) :=
  (W2_of_ne m ρ c main_arg7 (by decide)).trans (at1_main_arg7 m ρ c)
theorem at3_main_arg7 : W3 m ρ c (Proc.devRef .tc main_arg7) = m ((c : Thread nD τ).loc main_arg7) :=
  (show W3 m ρ c (Proc.devRef .tc main_arg7) = W2 m ρ c (Proc.devRef .tc main_arg7) by
    show StableHlo.after hostOps1 (W2 m ρ c) (Proc.devRef .tc main_arg7) = _
    after_results_simp).trans (at2_main_arg7 m ρ c)

theorem at1_main_arg8 : W1 m ρ c (Proc.devRef .tc main_arg8) = m ((c : Thread nD τ).loc main_arg8) := by
  show StableHlo.after hostOps0 (W0 m ρ c) (Proc.devRef .tc main_arg8) = _
  after_results_simp <;> rfl
theorem at2_main_arg8 : W2 m ρ c (Proc.devRef .tc main_arg8) = m ((c : Thread nD τ).loc main_arg8) :=
  (W2_of_ne m ρ c main_arg8 (by decide)).trans (at1_main_arg8 m ρ c)

theorem at1_main_arg9 : W1 m ρ c (Proc.devRef .tc main_arg9) = m ((c : Thread nD τ).loc main_arg9) := by
  show StableHlo.after hostOps0 (W0 m ρ c) (Proc.devRef .tc main_arg9) = _
  after_results_simp <;> rfl
theorem at2_main_arg9 : W2 m ρ c (Proc.devRef .tc main_arg9) = m ((c : Thread nD τ).loc main_arg9) :=
  (W2_of_ne m ρ c main_arg9 (by decide)).trans (at1_main_arg9 m ρ c)
theorem at3_main_arg9 : W3 m ρ c (Proc.devRef .tc main_arg9) = m ((c : Thread nD τ).loc main_arg9) :=
  (show W3 m ρ c (Proc.devRef .tc main_arg9) = W2 m ρ c (Proc.devRef .tc main_arg9) by
    show StableHlo.after hostOps1 (W2 m ρ c) (Proc.devRef .tc main_arg9) = _
    after_results_simp).trans (at2_main_arg9 m ρ c)
theorem at4_main_arg9 : W4 m ρ c (Proc.devRef .tc main_arg9) = m ((c : Thread nD τ).loc main_arg9) :=
  (W4_of_ne m ρ c main_arg9 (by decide)).trans (at3_main_arg9 m ρ c)
theorem at5_main_arg9 : W5 m ρ c (Proc.devRef .tc main_arg9) = m ((c : Thread nD τ).loc main_arg9) :=
  (show W5 m ρ c (Proc.devRef .tc main_arg9) = W4 m ρ c (Proc.devRef .tc main_arg9) by
    show StableHlo.after hostOps2 (W4 m ρ c) (Proc.devRef .tc main_arg9) = _
    after_results_simp).trans (at4_main_arg9 m ρ c)

theorem at1_main_arg10 : W1 m ρ c (Proc.devRef .tc main_arg10) = m ((c : Thread nD τ).loc main_arg10) := by
  show StableHlo.after hostOps0 (W0 m ρ c) (Proc.devRef .tc main_arg10) = _
  after_results_simp <;> rfl
theorem at2_main_arg10 : W2 m ρ c (Proc.devRef .tc main_arg10) = m ((c : Thread nD τ).loc main_arg10) :=
  (W2_of_ne m ρ c main_arg10 (by decide)).trans (at1_main_arg10 m ρ c)
theorem at3_main_arg10 : W3 m ρ c (Proc.devRef .tc main_arg10) = m ((c : Thread nD τ).loc main_arg10) :=
  (show W3 m ρ c (Proc.devRef .tc main_arg10) = W2 m ρ c (Proc.devRef .tc main_arg10) by
    show StableHlo.after hostOps1 (W2 m ρ c) (Proc.devRef .tc main_arg10) = _
    after_results_simp).trans (at2_main_arg10 m ρ c)
theorem at4_main_arg10 : W4 m ρ c (Proc.devRef .tc main_arg10) = m ((c : Thread nD τ).loc main_arg10) :=
  (W4_of_ne m ρ c main_arg10 (by decide)).trans (at3_main_arg10 m ρ c)
theorem at5_main_arg10 : W5 m ρ c (Proc.devRef .tc main_arg10) = m ((c : Thread nD τ).loc main_arg10) :=
  (show W5 m ρ c (Proc.devRef .tc main_arg10) = W4 m ρ c (Proc.devRef .tc main_arg10) by
    show StableHlo.after hostOps2 (W4 m ρ c) (Proc.devRef .tc main_arg10) = _
    after_results_simp).trans (at4_main_arg10 m ρ c)

theorem at1_main_arg11 : W1 m ρ c (Proc.devRef .tc main_arg11) = m ((c : Thread nD τ).loc main_arg11) := by
  show StableHlo.after hostOps0 (W0 m ρ c) (Proc.devRef .tc main_arg11) = _
  after_results_simp <;> rfl
theorem at2_main_arg11 : W2 m ρ c (Proc.devRef .tc main_arg11) = m ((c : Thread nD τ).loc main_arg11) :=
  (W2_of_ne m ρ c main_arg11 (by decide)).trans (at1_main_arg11 m ρ c)
theorem at3_main_arg11 : W3 m ρ c (Proc.devRef .tc main_arg11) = m ((c : Thread nD τ).loc main_arg11) :=
  (show W3 m ρ c (Proc.devRef .tc main_arg11) = W2 m ρ c (Proc.devRef .tc main_arg11) by
    show StableHlo.after hostOps1 (W2 m ρ c) (Proc.devRef .tc main_arg11) = _
    after_results_simp).trans (at2_main_arg11 m ρ c)
theorem at4_main_arg11 : W4 m ρ c (Proc.devRef .tc main_arg11) = m ((c : Thread nD τ).loc main_arg11) :=
  (W4_of_ne m ρ c main_arg11 (by decide)).trans (at3_main_arg11 m ρ c)

theorem at1_main_arg12 : W1 m ρ c (Proc.devRef .tc main_arg12) = m ((c : Thread nD τ).loc main_arg12) := by
  show StableHlo.after hostOps0 (W0 m ρ c) (Proc.devRef .tc main_arg12) = _
  after_results_simp <;> rfl
theorem at2_main_arg12 : W2 m ρ c (Proc.devRef .tc main_arg12) = m ((c : Thread nD τ).loc main_arg12) :=
  (W2_of_ne m ρ c main_arg12 (by decide)).trans (at1_main_arg12 m ρ c)
theorem at3_main_arg12 : W3 m ρ c (Proc.devRef .tc main_arg12) = m ((c : Thread nD τ).loc main_arg12) :=
  (show W3 m ρ c (Proc.devRef .tc main_arg12) = W2 m ρ c (Proc.devRef .tc main_arg12) by
    show StableHlo.after hostOps1 (W2 m ρ c) (Proc.devRef .tc main_arg12) = _
    after_results_simp).trans (at2_main_arg12 m ρ c)
theorem at4_main_arg12 : W4 m ρ c (Proc.devRef .tc main_arg12) = m ((c : Thread nD τ).loc main_arg12) :=
  (W4_of_ne m ρ c main_arg12 (by decide)).trans (at3_main_arg12 m ρ c)
theorem at5_main_arg12 : W5 m ρ c (Proc.devRef .tc main_arg12) = m ((c : Thread nD τ).loc main_arg12) :=
  (show W5 m ρ c (Proc.devRef .tc main_arg12) = W4 m ρ c (Proc.devRef .tc main_arg12) by
    show StableHlo.after hostOps2 (W4 m ρ c) (Proc.devRef .tc main_arg12) = _
    after_results_simp).trans (at4_main_arg12 m ρ c)
theorem at6_main_arg12 : W6 m ρ c (Proc.devRef .tc main_arg12) = m ((c : Thread nD τ).loc main_arg12) :=
  (W6_of_ne m ρ c main_arg12 (by decide)).trans (at5_main_arg12 m ρ c)
theorem at7_main_arg12 : W7 m ρ c (Proc.devRef .tc main_arg12) = m ((c : Thread nD τ).loc main_arg12) :=
  (show W7 m ρ c (Proc.devRef .tc main_arg12) = W6 m ρ c (Proc.devRef .tc main_arg12) by
    show StableHlo.after hostOps3 (W6 m ρ c) (Proc.devRef .tc main_arg12) = _
    after_results_simp).trans (at6_main_arg12 m ρ c)

theorem at1_main_arg13 : W1 m ρ c (Proc.devRef .tc main_arg13) = m ((c : Thread nD τ).loc main_arg13) := by
  show StableHlo.after hostOps0 (W0 m ρ c) (Proc.devRef .tc main_arg13) = _
  after_results_simp <;> rfl
theorem at2_main_arg13 : W2 m ρ c (Proc.devRef .tc main_arg13) = m ((c : Thread nD τ).loc main_arg13) :=
  (W2_of_ne m ρ c main_arg13 (by decide)).trans (at1_main_arg13 m ρ c)
theorem at3_main_arg13 : W3 m ρ c (Proc.devRef .tc main_arg13) = m ((c : Thread nD τ).loc main_arg13) :=
  (show W3 m ρ c (Proc.devRef .tc main_arg13) = W2 m ρ c (Proc.devRef .tc main_arg13) by
    show StableHlo.after hostOps1 (W2 m ρ c) (Proc.devRef .tc main_arg13) = _
    after_results_simp).trans (at2_main_arg13 m ρ c)
theorem at4_main_arg13 : W4 m ρ c (Proc.devRef .tc main_arg13) = m ((c : Thread nD τ).loc main_arg13) :=
  (W4_of_ne m ρ c main_arg13 (by decide)).trans (at3_main_arg13 m ρ c)
theorem at5_main_arg13 : W5 m ρ c (Proc.devRef .tc main_arg13) = m ((c : Thread nD τ).loc main_arg13) :=
  (show W5 m ρ c (Proc.devRef .tc main_arg13) = W4 m ρ c (Proc.devRef .tc main_arg13) by
    show StableHlo.after hostOps2 (W4 m ρ c) (Proc.devRef .tc main_arg13) = _
    after_results_simp).trans (at4_main_arg13 m ρ c)
theorem at6_main_arg13 : W6 m ρ c (Proc.devRef .tc main_arg13) = m ((c : Thread nD τ).loc main_arg13) :=
  (W6_of_ne m ρ c main_arg13 (by decide)).trans (at5_main_arg13 m ρ c)
theorem at7_main_arg13 : W7 m ρ c (Proc.devRef .tc main_arg13) = m ((c : Thread nD τ).loc main_arg13) :=
  (show W7 m ρ c (Proc.devRef .tc main_arg13) = W6 m ρ c (Proc.devRef .tc main_arg13) by
    show StableHlo.after hostOps3 (W6 m ρ c) (Proc.devRef .tc main_arg13) = _
    after_results_simp).trans (at6_main_arg13 m ρ c)

theorem at1_main_arg14 : W1 m ρ c (Proc.devRef .tc main_arg14) = m ((c : Thread nD τ).loc main_arg14) := by
  show StableHlo.after hostOps0 (W0 m ρ c) (Proc.devRef .tc main_arg14) = _
  after_results_simp <;> rfl
theorem at2_main_arg14 : W2 m ρ c (Proc.devRef .tc main_arg14) = m ((c : Thread nD τ).loc main_arg14) :=
  (W2_of_ne m ρ c main_arg14 (by decide)).trans (at1_main_arg14 m ρ c)
theorem at3_main_arg14 : W3 m ρ c (Proc.devRef .tc main_arg14) = m ((c : Thread nD τ).loc main_arg14) :=
  (show W3 m ρ c (Proc.devRef .tc main_arg14) = W2 m ρ c (Proc.devRef .tc main_arg14) by
    show StableHlo.after hostOps1 (W2 m ρ c) (Proc.devRef .tc main_arg14) = _
    after_results_simp).trans (at2_main_arg14 m ρ c)
theorem at4_main_arg14 : W4 m ρ c (Proc.devRef .tc main_arg14) = m ((c : Thread nD τ).loc main_arg14) :=
  (W4_of_ne m ρ c main_arg14 (by decide)).trans (at3_main_arg14 m ρ c)
theorem at5_main_arg14 : W5 m ρ c (Proc.devRef .tc main_arg14) = m ((c : Thread nD τ).loc main_arg14) :=
  (show W5 m ρ c (Proc.devRef .tc main_arg14) = W4 m ρ c (Proc.devRef .tc main_arg14) by
    show StableHlo.after hostOps2 (W4 m ρ c) (Proc.devRef .tc main_arg14) = _
    after_results_simp).trans (at4_main_arg14 m ρ c)
theorem at6_main_arg14 : W6 m ρ c (Proc.devRef .tc main_arg14) = m ((c : Thread nD τ).loc main_arg14) :=
  (W6_of_ne m ρ c main_arg14 (by decide)).trans (at5_main_arg14 m ρ c)

/-! ## A layer's result is still there when the next region reads it -/

theorem keep3_main_v26 : W3 m ρ c (Proc.devRef .tc main_v26) = W2 m ρ c (Proc.devRef .tc main_v26) := by
  show StableHlo.after hostOps1 (W2 m ρ c) (Proc.devRef .tc main_v26) = _
  after_results_simp

theorem keep5_main_v40 : W5 m ρ c (Proc.devRef .tc main_v40) = W4 m ρ c (Proc.devRef .tc main_v40) := by
  show StableHlo.after hostOps2 (W4 m ρ c) (Proc.devRef .tc main_v40) = _
  after_results_simp

theorem keep7_main_v54 : W7 m ρ c (Proc.devRef .tc main_v54) = W6 m ρ c (Proc.devRef .tc main_v54) := by
  show StableHlo.after hostOps3 (W6 m ρ c) (Proc.devRef .tc main_v54) = _
  after_results_simp

end Cert.KernelIdeal.Carry

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibSegmentSum.lean ====
/-
  Accumulating scatters (jnp `.at[idx].add(v)`, `jax.ops.segment_sum`) read at an index, on the extended reals.

  A `stablehlo.scatter` whose body adds lands every update element on the operand element its start index names: the
  start is read SIGNED off the index array and is NOT clamped, and an update whose landing place is outside the operand
  is dropped. At the exact instance the result element is the operand's plus the sum of the updates landing on it.
  Three layouts are read here at coordinates, each as "operand plus the sum over the update's leading axis of the update
  where the index word names this element, zero elsewhere":
  * `rows`: operand `[N, C]`, indices `[R, 1]`, updates `[R, C]` — update row `e` is added to operand row `idx[e,0]`
    (a segment sum of rows);
  * `cells`: operand `[N]`, indices `[R, 1]`, updates `[R]` — update `e` is added to element `idx[e,0]` (a histogram,
    a degree count);
  * `pairs`: operand `[N, M]`, indices `[R, 2]`, updates `[R]` — update `e` is added to element `(idx[e,0], idx[e,1])`
    (a dense matrix assembled from coordinate triples).
-/
import Idealize.ShloMosaic.PureOps.Ideal
import Idealize.ShloMosaic.Lib.ValueIdx

noncomputable section

open scoped BigOperators

namespace Idealize.ShloMosaic.SegmentSum

open Idealize.ShloMosaic Idealize.ShloMosaic.ValueIdx

/-! ## Rows: `[N, C]` at `[R, 1]` by `[R, C]` -/

/-- The dimension numbers of a scatter of whole rows: the update's axis 1 is the window, the operand's axis 0 is the
    one the index names. -/
abbrev rowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C M w : Nat}

/-- Where update element `(e, k)` lands: row `idx[e, 0]` read signed, column `k`; nowhere when that row is outside. -/
theorem rows_resultIdx? (wf : ScatterDims.WF ⟨2, ![N, C]⟩ ⟨2, ![R, 1]⟩ ⟨2, ![R, C]⟩ [1] [0] [0] 1)
    (idx : IVec ⟨2, ![R, 1]⟩ w) (e : Fin R) (k : Fin C) (r : Fin N) (c : Fin C) :
    (rowsDims N R C wf).resultIdx? (ix2 e k) idx = some (ix2 r c)
      ↔ (idx (ix2 e 0)).toInt = (r.val : Int) ∧ k = c := by
  have hs0 : (rowsDims N R C wf).start (ix2 e k) idx 0 = (idx (ix2 e 0)).toInt := by
    unfold ScatterDims.start
    rw [dif_pos (show (0 : Fin 2) ∈ (rowsDims N R C wf).scatterDimsToOperandDims from List.mem_singleton.mpr rfl)]
    congr 2
    funext b; refine Fin.ext ?_
    match b with
    | ⟨0, _⟩ => rfl
    | ⟨1, _⟩ => rfl
  have hs1 : (rowsDims N R C wf).start (ix2 e k) idx 1 = 0 := by
    unfold ScatterDims.start
    rw [dif_neg (show (1 : Fin 2) ∉ ([0] : List (Fin 2)) by decide)]
  have hw0 : (rowsDims N R C wf).window (ix2 e k) 0 = 0 := by
    unfold ScatterDims.window
    have hk : (rowsDims N R C wf).sKept = ([1] : List (Fin 2)) := rfl
    rw [dif_neg (hk ▸ (by decide : (0 : Fin 2) ∉ ([1] : List (Fin 2))))]
  have hw1 : (rowsDims N R C wf).window (ix2 e k) 1 = k.val := by
    unfold ScatterDims.window
    have hk : (rowsDims N R C wf).sKept = ([1] : List (Fin 2)) := rfl
    rw [dif_pos (hk ▸ (by decide : (1 : Fin 2) ∈ ([1] : List (Fin 2))))]
    rfl
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      rw [hs0, hw0] at hin0
      refine ⟨?_, Fin.ext ?_⟩
      · have : ((idx (ix2 e 0)).toInt + ((0 : ℕ) : Int)).toNat = r.val := h0
        omega
      · have : ((0 : Int) + (k.val : Int)).toNat = c.val := h1
        omega
    · exact absurd h (by simp)
  · rintro ⟨hr, rfl⟩
    have e0 : (rowsDims N R C wf).start (ix2 e k) idx 0 + (rowsDims N R C wf).window (ix2 e k) 0 = (r.val : Int) := by
      rw [hs0, hw0, hr]; omega
    have e1 : (rowsDims N R C wf).start (ix2 e k) idx 1 + (rowsDims N R C wf).window (ix2 e k) 1 = (k.val : Int) := by
      rw [hs1, hw1]; omega
    have hin : ∀ a : Fin 2, 0 ≤ (rowsDims N R C wf).start (ix2 e k) idx a + (rowsDims N R C wf).window (ix2 e k) a
        ∧ (rowsDims N R C wf).start (ix2 e k) idx a + (rowsDims N R C wf).window (ix2 e k) a < (⟨2, ![N, C]⟩ : Shape).size a := by
      intro a
      match a with
      | ⟨0, _⟩ =>
        have h : 0 ≤ (rowsDims N R C wf).start (ix2 e k) idx 0 + (rowsDims N R C wf).window (ix2 e k) 0
            ∧ (rowsDims N R C wf).start (ix2 e k) idx 0 + (rowsDims N R C wf).window (ix2 e k) 0 < (N : Int) := by
          rw [e0]; have := r.isLt; constructor <;> omega
        exact h
      | ⟨1, _⟩ =>
        have h : 0 ≤ (rowsDims N R C wf).start (ix2 e k) idx 1 + (rowsDims N R C wf).window (ix2 e k) 1
            ∧ (rowsDims N R C wf).start (ix2 e k) idx 1 + (rowsDims N R C wf).window (ix2 e k) 1 < (C : Int) := by
          rw [e1]; have := k.isLt; constructor <;> omega
        exact h
    rw [dif_pos hin]
    congr 1
    funext a; refine Fin.ext ?_
    match a with
    | ⟨0, _⟩ =>
      show ((rowsDims N R C wf).start (ix2 e k) idx 0 + (rowsDims N R C wf).window (ix2 e k) 0).toNat = r.val
      rw [e0]; omega
    | ⟨1, _⟩ =>
      show ((rowsDims N R C wf).start (ix2 e k) idx 1 + (rowsDims N R C wf).window (ix2 e k) 1).toNat = k.val
      rw [e1]; omega

/-- THE ROW SCATTER READ AT `(r, c)`: the operand's element plus the sum, over the update rows `e` whose index word
    `idx[e, 0]` (read signed) is `r`, of the update's element `(e, c)`. Rows whose index is negative or `≥ N` add
    nothing. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (r : Fin N) (c : Fin C) :
    Host.scatterAdd (rowsDims N R C wf) x idx upd (ix2 r c)
      = x (ix2 r c) + ∑ e : Fin R, if (idx (ix2 e 0)).toInt = (r.val : Int) then upd (ix2 e c) else 0 := by
  show Ideal.hostScatterAdd (rowsDims N R C wf) x idx upd (ix2 r c) = _
  unfold Ideal.hostScatterAdd
  congr 1
  rw [Finset.sum_filter, sum_idx2]
  refine Finset.sum_congr rfl fun e _ => ?_
  simp only [rows_resultIdx?]
  by_cases h : (idx (ix2 e 0)).toInt = (r.val : Int)
  · simp only [h, true_and, if_true]
    rw [Finset.sum_ite_eq' Finset.univ c fun k => upd (ix2 e k)]
    simp
  · simp [h]

/-! ## Cells: `[N]` at `[R, 1]` by `[R]` -/

/-- The dimension numbers of a scatter of single elements into a vector. -/
abbrev cellsDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update element `e` lands: element `idx[e, 0]` read signed; nowhere when that is outside. -/
theorem cells_resultIdx? (wf : ScatterDims.WF ⟨1, ![N]⟩ ⟨2, ![R, 1]⟩ ⟨1, ![R]⟩ [] [0] [0] 1)
    (idx : IVec ⟨2, ![R, 1]⟩ w) (e : Fin R) (r : Fin N) :
    (cellsDims N R wf).resultIdx? (ix1 e) idx = some (ix1 r) ↔ (idx (ix2 e 0)).toInt = (r.val : Int) := by
  have hs0 : (cellsDims N R wf).start (ix1 e) idx 0 = (idx (ix2 e 0)).toInt := by
    unfold ScatterDims.start
    rw [dif_pos (show (0 : Fin 1) ∈ (cellsDims N R wf).scatterDimsToOperandDims from List.mem_singleton.mpr rfl)]
    congr 2
    funext b; refine Fin.ext ?_
    match b with
    | ⟨0, _⟩ => rfl
    | ⟨1, _⟩ => rfl
  have hw0 : (cellsDims N R wf).window (ix1 e) 0 = 0 := by
    unfold ScatterDims.window
    have hk : (cellsDims N R wf).sKept = ([] : List (Fin 1)) := rfl
    rw [dif_neg (hk ▸ List.not_mem_nil)]
  unfold ScatterDims.resultIdx?
  constructor
  · intro h
    split at h
    · rename_i hin
      have h0 := congrArg (fun i => ((i (0 : Fin 1) : Fin _) : ℕ)) (Option.some.inj h)
      simp only [hs0, hw0] at h0
      have hin0 := hin 0
      rw [hs0, hw0] at hin0
      have : ((idx (ix2 e 0)).toInt + ((0 : ℕ) : Int)).toNat = r.val := h0
      omega
    · exact absurd h (by simp)
  · intro hr
    have e0 : (cellsDims N R wf).start (ix1 e) idx 0 + (cellsDims N R wf).window (ix1 e) 0 = (r.val : Int) := by
      rw [hs0, hw0, hr]; omega
    have hin : ∀ a : Fin 1, 0 ≤ (cellsDims N R wf).start (ix1 e) idx a + (cellsDims N R wf).window (ix1 e) a
        ∧ (cellsDims N R wf).start (ix1 e) idx a + (cellsDims N R wf).window (ix1 e) a < (⟨1, ![N]⟩ : Shape).size a := by
      intro a
      match a with
      | ⟨0, _⟩ =>
        have h : 0 ≤ (cellsDims N R wf).start (ix1 e) idx 0 + (cellsDims N R wf).window (ix1 e) 0
            ∧ (cellsDims N R wf).start (ix1 e) idx 0 + (cellsDims N R wf).window (ix1 e) 0 < (N : Int) := by
          rw [e0]; have := r.isLt; constructor <;> omega
        exact h
    rw [dif_pos hin]
    congr 1
    funext a; refine Fin.ext ?_
    match a with
    | ⟨0, _⟩ =>
      show ((cellsDims N R wf).start (ix1 e) idx 0 + (cellsDims N R wf).window (ix1 e) 0).toNat = r.val
      rw [e0]; omega

/-- A sum over the indices of a one-axis array is the sum over its coordinate. -/
theorem sum_ix1 {A : Type*} [AddCommMonoid A] {n : Nat} (g : (⟨1, ![n]⟩ : Shape).Idx → A) : ∑ i, g i = ∑ a : Fin n, g (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm g]
  rfl

/-- THE CELL SCATTER READ AT `r`: the operand's element plus the sum of the updates `e` whose index word `idx[e, 0]`
    (read signed) is `r`. With every update `1` this is the number of index words equal to `r`: a degree count. -/
theorem scatterAdd_cells_apply {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (r : Fin N) :
    Host.scatterAdd (cellsDims N R wf) x idx upd (ix1 r)
      = x (ix1 r) + ∑ e : Fin R, if (idx (ix2 e 0)).toInt = (r.val : Int) then upd (ix1 e) else 0 := by
  show Ideal.hostScatterAdd (cellsDims N R wf) x idx upd (ix1 r) = _
  unfold Ideal.hostScatterAdd
  congr 1
  rw [Finset.sum_filter, sum_ix1]
  refine Finset.sum_congr rfl fun e _ => ?_
  simp only [cells_resultIdx?]

/-! ## Pairs: `[N, M]` at `[R, 2]` by `[R]` -/

/-- The dimension numbers of a scatter of single elements into a matrix at (row, column) pairs. -/
abbrev pairsDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

/-- Where update element `e` lands: row `idx[e, 0]`, column `idx[e, 1]`, both read signed; nowhere when either is
    outside the matrix. -/
theorem pairs_resultIdx? (wf : ScatterDims.WF ⟨2, ![N, M]⟩ ⟨2, ![R, 2]⟩ ⟨1, ![R]⟩ [] [0, 1] [0, 1] 1)
    (idx : IVec ⟨2, ![R, 2]⟩ w) (e : Fin R) (r : Fin N) (c : Fin M) :
    (pairsDims N M R wf).resultIdx? (ix1 e) idx = some (ix2 r c)
      ↔ (idx (ix2 e 0)).toInt = (r.val : Int) ∧ (idx (ix2 e 1)).toInt = (c.val : Int) := by
  have hs0 : (pairsDims N M R wf).start (ix1 e) idx 0 = (idx (ix2 e 0)).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : (pairsDims N M R wf).start (ix1 e) idx 1 = (idx (ix2 e 1)).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hk : (pairsDims N M R wf).sKept = ([] : List (Fin 2)) := rfl
  have hw0 : (pairsDims N M R wf).window (ix1 e) 0 = 0 := by
    unfold ScatterDims.window
    rw [dif_neg (hk ▸ List.not_mem_nil)]
  have hw1 : (pairsDims N M R wf).window (ix1 e) 1 = 0 := by
    unfold ScatterDims.window
    rw [dif_neg (hk ▸ List.not_mem_nil)]
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      have hin1 := hin 1
      rw [hs0, hw0] at hin0
      rw [hs1, hw1] at hin1
      have g0 : ((idx (ix2 e 0)).toInt + ((0 : ℕ) : Int)).toNat = r.val := h0
      have g1 : ((idx (ix2 e 1)).toInt + ((0 : ℕ) : Int)).toNat = c.val := h1
      constructor <;> omega
    · exact absurd h (by simp)
  · rintro ⟨hr, hc⟩
    have e0 : (pairsDims N M R wf).start (ix1 e) idx 0 + (pairsDims N M R wf).window (ix1 e) 0 = (r.val : Int) := by
      rw [hs0, hw0, hr]; omega
    have e1 : (pairsDims N M R wf).start (ix1 e) idx 1 + (pairsDims N M R wf).window (ix1 e) 1 = (c.val : Int) := by
      rw [hs1, hw1, hc]; omega
    have hin : ∀ a : Fin 2, 0 ≤ (pairsDims N M R wf).start (ix1 e) idx a + (pairsDims N M R wf).window (ix1 e) a
        ∧ (pairsDims N M R wf).start (ix1 e) idx a + (pairsDims N M R wf).window (ix1 e) a < (⟨2, ![N, M]⟩ : Shape).size a := by
      intro a
      match a with
      | ⟨0, _⟩ =>
        have h : 0 ≤ (pairsDims N M R wf).start (ix1 e) idx 0 + (pairsDims N M R wf).window (ix1 e) 0
            ∧ (pairsDims N M R wf).start (ix1 e) idx 0 + (pairsDims N M R wf).window (ix1 e) 0 < (N : Int) := by
          rw [e0]; have := r.isLt; constructor <;> omega
        exact h
      | ⟨1, _⟩ =>
        have h : 0 ≤ (pairsDims N M R wf).start (ix1 e) idx 1 + (pairsDims N M R wf).window (ix1 e) 1
            ∧ (pairsDims N M R wf).start (ix1 e) idx 1 + (pairsDims N M R wf).window (ix1 e) 1 < (M : Int) := by
          rw [e1]; have := c.isLt; constructor <;> omega
        exact h
    rw [dif_pos hin]
    congr 1
    funext a; refine Fin.ext ?_
    match a with
    | ⟨0, _⟩ =>
      show ((pairsDims N M R wf).start (ix1 e) idx 0 + (pairsDims N M R wf).window (ix1 e) 0).toNat = r.val
      rw [e0]; omega
    | ⟨1, _⟩ =>
      show ((pairsDims N M R wf).start (ix1 e) idx 1 + (pairsDims N M R wf).window (ix1 e) 1).toNat = c.val
      rw [e1]; omega

/-- THE PAIR SCATTER READ AT `(r, c)`: the operand's element plus the sum of the updates `e` whose index pair
    `(idx[e, 0], idx[e, 1])` (read signed) is `(r, c)`: the dense matrix of a list of weighted coordinate pairs, repeated
    pairs accumulated. -/
theorem scatterAdd_pairs_apply {φ : FTy} (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ) (r : Fin N) (c : Fin M) :
    Host.scatterAdd (pairsDims N M R wf) x idx upd (ix2 r c)
      = x (ix2 r c) + ∑ e : Fin R,
          if (idx (ix2 e 0)).toInt = (r.val : Int) ∧ (idx (ix2 e 1)).toInt = (c.val : Int) then upd (ix1 e) else 0 := by
  show Ideal.hostScatterAdd (pairsDims N M R wf) x idx upd (ix2 r c) = _
  unfold Ideal.hostScatterAdd
  congr 1
  rw [Finset.sum_filter, sum_ix1]
  refine Finset.sum_congr rfl fun e _ => ?_
  simp only [pairs_resultIdx?]

end Idealize.ShloMosaic.SegmentSum

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.LibGatherRows.lean ====
/-
  `stablehlo.gather` of whole rows of a rank-2 table, read at an index.

  What `jnp.take(table, idx, axis=0)` of a table `[N, C]` at a vector of `R` row numbers lowers to: a gather
  with offset_dims `[1]`, collapsed_slice_dims `[0]`, start_index_map `[0]`, index_vector_dim 1 and slice sizes
  `[1, C]`, over the row numbers as a column `[R, 1]`. Result element `(r, c)` is the table at row
  `idx[r, 0]` — read as a signed integer and clamped into `[0, N − 1]`, as the gather clamps every start index —
  and column `c`: on the row axis the operand index is the clamped start (no batching, the axis is collapsed so
  it has no offset), on the column axis it is the result's own column coordinate (the axis is not in the start
  index map, so its start is 0, and it is the one offset axis).
-/
import Idealize.ShloMosaic.Lib.ValueIdx

noncomputable section

namespace Cert.LibGatherRows

open Idealize.ShloMosaic Idealize.ShloMosaic.ValueIdx

variable {α : Type}

/-- Those dimension numbers for a table `[N, C]`, row numbers `[R, 1]` and result `[R, C]`; their conditions
    `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, c)`: the table at the row `idx[r, 0]`, read signed and clamped into `[0, N − 1]`,
    and column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r c) idx 1 + (rowsDims N C R wf).batchCoord (ix2 r c) 1
        + (rowsDims N C R wf).offCoord (ix2 r c) 1 = c.val
    rw [GatherDims.batchCoord_eq_zero _ _ _ List.not_mem_nil]
    unfold GatherDims.start
    rw [dif_neg (show ¬ (1 : Fin 2) ∈ (rowsDims N C R wf).startIndexMap from
      fun h => absurd (congrArg Fin.val (List.mem_singleton.mp h)) Nat.one_ne_zero)]
    simp only [Nat.add_zero, Nat.zero_add]
    rfl

end Cert.LibGatherRows

end
-- ==== Proof.LibEdgeAggregate.lean ====
/-
  The host side of a mean aggregation over an edge list, read at an index on the extended reals.

  Edges are the rows of a column `D` of destination words and a column `S` of source words. An aggregation gathers
  row `S[e]` of a node table for every edge `e` (the source word read signed and clamped into the table) and adds it
  onto row `D[e]` of a zero table (the destination word read signed; an edge whose destination is outside the table
  is dropped). Read at `(i, c)` the result is zero plus the sum, over the edges directed into `i`, of the table at the
  edge's source row, column `c`. The in-degree is the same scatter of ones; its maximum with one is a positive real.
-/
import Idealize.ShloMosaic.PureOps.Ideal.Laws
import Idealize.ShloMosaic.Lib.IdealHost
import Idealize.ShloMosaic.Lib.ValueIdx
import Idealize.ShloMosaic.Lib.Pipeline.Value
import proofs.«136466_j6270652252188_1_alg».proof.Proof.LibSegmentSum
import proofs.«136466_j6270652252188_1_alg».proof.Proof.LibGatherRows
import proofs.«136466_j6270652252188_1_alg».proof.Proof.LibBroadcastInDim

noncomputable section

open scoped BigOperators

namespace Cert.Sage.Read

open Idealize.ShloMosaic Idealize.ShloMosaic.ValueIdx

variable {N E C w : ℕ}

/-- The node whose row edge `e` carries: its source word read signed and clamped into the table. -/
def srcRow (hN : 0 < N) (S : IVec ⟨2, ![E, 1]⟩ w) (e : Fin E) : Fin N :=
  ⟨min (S (ix2 e (0 : Fin 1))).toInt.toNat (N - 1), by omega⟩

/-- Edge `e` is directed into node `i`: its destination word, read signed, is `i`. -/
def into (D : IVec ⟨2, ![E, 1]⟩ w) (i : Fin N) (e : Fin E) : Prop := (D (ix2 e (0 : Fin 1))).toInt = (i.val : Int)

instance (D : IVec ⟨2, ![E, 1]⟩ w) (i : Fin N) : DecidablePred (into D i) := fun _ => inferInstanceAs (Decidable (_ = _))

/-- THE AGGREGATION READ AT `(i, c)`: zero plus the sum over the edges into `i` of the table at the edge's source row. -/
theorem aggregate_apply (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z x : FVec Ideal ⟨2, ![N, C]⟩ .f32) (hz : ∀ j, z j = 0) (D S : IVec ⟨2, ![E, 1]⟩ w) (i : Fin N) (c : Fin C) :
    Host.scatterAdd (SegmentSum.rowsDims N E C wfs) z D (Host.gather (Cert.LibGatherRows.rowsDims N C E wfg) x S) (ix2 i c)
      = (0 : EReal) + ∑ e : Fin E, if into D i e then x (ix2 (srcRow hN S e) c) else 0 := by
  rw [SegmentSum.scatterAdd_rows_apply, hz]
  congr 1
  refine Finset.sum_congr rfl fun e _ => ?_
  rw [Cert.LibGatherRows.gather_rows_apply hN]
  rfl

/-- A finite sum of ones and zeros is a natural number. -/
theorem sum_indicator_nat {ι : Type*} (s : Finset ι) (p : ι → Prop) [DecidablePred p] :
    ∃ n : ℕ, (∑ e ∈ s, if p e then (1 : EReal) else 0) = (n : EReal) := by
  classical
  induction s using Finset.induction_on with
  | empty => exact ⟨0, by simp⟩
  | insert a s ha ih =>
    obtain ⟨n, hn⟩ := ih
    rw [Finset.sum_insert ha, hn]
    by_cases hp : p a
    · exact ⟨1 + n, by rw [if_pos hp, Nat.cast_add, Nat.cast_one]⟩
    · exact ⟨n, by rw [if_neg hp, zero_add]⟩

/-- THE CLAMPED IN-DEGREE IS A POSITIVE REAL: ones scattered onto a zero vector at the destination words, then the
    maximum with one. -/
theorem degree_pos_real (wfc : ScatterDims.WF ⟨1, ![N]⟩ ⟨2, ![E, 1]⟩ ⟨1, ![E]⟩ [] [0] [0] 1)
    (z o : FVec Ideal ⟨1, ![N]⟩ .f32) (hz : ∀ j, z j = 0) (ho : ∀ j, o j = 1)
    (u : FVec Ideal ⟨1, ![E]⟩ .f32) (hu : ∀ j, u j = 1) (D : IVec ⟨2, ![E, 1]⟩ w) (i : Fin N) :
    ∃ r : ℝ, 0 < r ∧ maximumf (Host.scatterAdd (SegmentSum.cellsDims N E wfc) z D u) o (ix1 i) = (r : EReal) := by
  rw [maximumf_apply, SegmentSum.scatterAdd_cells_apply, hz, ho, zero_add]
  simp only [hu]
  obtain ⟨n, hn⟩ := sum_indicator_nat Finset.univ fun e : Fin E => (D (ix2 e 0)).toInt = (i.val : Int)
  rw [hn]
  refine ⟨max (n : ℝ) 1, lt_max_of_lt_right one_pos, ?_⟩
  rw [← EReal.coe_coe_eq_natCast, ← EReal.coe_one]
  exact (Monotone.map_max (f := ((↑) : ℝ → EReal)) fun a b h => EReal.coe_le_coe_iff.mpr h).symm

/-- A per-node vector spread along every lane of a table reads, at `(i, c)`, the vector at `i`. -/
theorem spread_apply {α : Type} (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (v : (⟨1, ![N]⟩ : Shape).Idx → α) (i : Fin N) (c : Fin C) :
    broadcastInDim ⟨2, ![N, C]⟩ (![0, 1] : Fin 2 → Fin 2) h2 (broadcastInDim ⟨2, ![N, 1]⟩ (![0] : Fin 1 → Fin 2) h1 v) (ix2 i c)
      = v (ix1 i) := by
  rw [Cert.Lib.BroadcastInDim.col_lanes_apply, Cert.Lib.BroadcastInDim.vec_col_apply]

end Cert.Sage.Read

end
-- ==== Proof.LibMeanLayer.lean ====
/-
  One layer of a mean-aggregation graph network on the extended reals, for any numbers of nodes `N`, edges `E`,
  input features `K` and output features `C`.

  A layer takes the table `S` of neighbour sums and the node table `X`, divides row `p` of `S` by the clamped
  in-degree `d p` of node `p`, and returns, at `(p, c)`,
      sum_k (S (p,k) / d p) * Wl (k,c)  +  sum_k X (p,k) * Wr (k,c)  +  b c,
  followed, in a hidden layer, by the maximum with zero. Two arrangements of the division meet here: the product
  with the reciprocal `1 / d p` computed once per node, and the quotient by `d p` itself. They agree on every
  extended real because `d p` is a positive real: the maximum of a count of edges and one (`mean_law`).

  The file states the layer as one function (`lin`, `relu`, `meanOf`), that an entry of `lin` depends only on
  its own row of the two tables (`lin_row`), and reads each arrangement's array operations against it: the
  product form and the quotient form of the mean (`aggMul_eq`, `aggDiv_eq`), the in-degree counted into a column
  `[N, 1]` or into a vector `[N]` (`deg_rows_eq_cells`), two whole matrix products plus a bias row
  (`refLin_eq`), two matrix-unit products of a block of rows plus the bias row (`bodyLin_eq`), and the maximum with
  a zero splat (`relu_host`, `relu_body`).
-/
import Idealize.ShloMosaic.PureOps.Ideal.Laws
import Idealize.ShloMosaic.Lib.ValueIdx
import Idealize.ShloMosaic.Lib.ValueLayout
import Idealize.ShloMosaic.Lib.Pipeline.Value
import proofs.«136466_j6270652252188_1_alg».proof.Proof.LibPlainDot
import proofs.«136466_j6270652252188_1_alg».proof.Proof.LibSegmentSum
import proofs.«136466_j6270652252188_1_alg».proof.Proof.LibBroadcastInDim
import proofs.«136466_j6270652252188_1_alg».proof.Proof.LibEdgeAggregate

noncomputable section

open scoped BigOperators

namespace Cert.Sage.Layer

open Idealize.ShloMosaic Idealize.ShloMosaic.ValueIdx

variable {N E K C : ℕ}

/-! ## The layer as a function -/

/-- The affine part of a layer at `(p, c)`: row `p` of the aggregated table against column `c` of `Wl`, row `p` of
    the node table against column `c` of `Wr`, plus the bias at `c`. -/
def lin (A X : (⟨2, ![N, K]⟩ : Shape).Idx → EReal) (Wl Wr : (⟨2, ![K, C]⟩ : Shape).Idx → EReal) (b : Fin C → EReal) :
    (⟨2, ![N, C]⟩ : Shape).Idx → EReal :=
  fun j => (∑ k : Fin K, A (ix2 (j 0) k) * Wl (ix2 k (j 1))) + (∑ k : Fin K, X (ix2 (j 0) k) * Wr (ix2 k (j 1))) + b (j 1)

/-- The maximum with zero, entry by entry. -/
def relu (y : (⟨2, ![N, C]⟩ : Shape).Idx → EReal) : (⟨2, ![N, C]⟩ : Shape).Idx → EReal := fun j => max (y j) 0

/-- Row `p` of the table of neighbour sums divided by node `p`'s clamped in-degree. -/
def meanOf (S : (⟨2, ![N, K]⟩ : Shape).Idx → EReal) (d : Fin N → EReal) : (⟨2, ![N, K]⟩ : Shape).Idx → EReal :=
  fun j => Ideal.div (S j) (d (j 0))

/-- An entry of the affine part depends on one row of each table only: a block of rows cut out of the two tables
    gives, at its row `p'`, what the whole tables give at the row `p` it was cut from. -/
theorem lin_row {M : ℕ} (A X : (⟨2, ![N, K]⟩ : Shape).Idx → EReal) (A' X' : (⟨2, ![M, K]⟩ : Shape).Idx → EReal)
    (Wl Wr : (⟨2, ![K, C]⟩ : Shape).Idx → EReal) (b : Fin C → EReal) (p : Fin N) (p' : Fin M) (c : Fin C)
    (hA : ∀ k, A' (ix2 p' k) = A (ix2 p k)) (hX : ∀ k, X' (ix2 p' k) = X (ix2 p k)) :
    lin A' X' Wl Wr b (ix2 p' c) = lin A X Wl Wr b (ix2 p c) := by
  show (∑ k : Fin K, A' (ix2 p' k) * Wl (ix2 k c)) + (∑ k : Fin K, X' (ix2 p' k) * Wr (ix2 k c)) + b c
     = (∑ k : Fin K, A (ix2 p k) * Wl (ix2 k c)) + (∑ k : Fin K, X (ix2 p k) * Wr (ix2 k c)) + b c
  simp only [hA, hX]

/-- THE LAYER ON A BLOCK OF ROWS. Read the two tables through maps that send row `p` of a block to row `row p` of the
    tables (keeping the column), the weights and the bias row through maps that move nothing: the affine part of the
    block at an entry is the affine part of the whole tables at the entry the block's entry sits at. -/
theorem lin_blocks {M : ℕ} (A X : (⟨2, ![N, K]⟩ : Shape).Idx → EReal) (Wl Wr : (⟨2, ![K, C]⟩ : Shape).Idx → EReal)
    (B : (⟨2, ![1, C]⟩ : Shape).Idx → EReal)
    (eA eX : (⟨2, ![M, K]⟩ : Shape).Idx → (⟨2, ![N, K]⟩ : Shape).Idx)
    (eWl eWr : (⟨2, ![K, C]⟩ : Shape).Idx → (⟨2, ![K, C]⟩ : Shape).Idx)
    (eB : (⟨2, ![1, C]⟩ : Shape).Idx → (⟨2, ![1, C]⟩ : Shape).Idx)
    (eO : (⟨2, ![M, C]⟩ : Shape).Idx → (⟨2, ![N, C]⟩ : Shape).Idx) (row : Fin M → Fin N)
    (hA : ∀ p k, eA (ix2 p k) = ix2 (row p) k) (hX : ∀ p k, eX (ix2 p k) = ix2 (row p) k)
    (hWl : ∀ y, eWl y = y) (hWr : ∀ y, eWr y = y) (hB : ∀ y, eB y = y)
    (hO : ∀ p c, eO (ix2 p c) = ix2 (row p) c) (j : (⟨2, ![M, C]⟩ : Shape).Idx) :
    lin (fun y => A (eA y)) (fun y => X (eX y)) (fun y => Wl (eWl y)) (fun y => Wr (eWr y))
        (fun c => B (eB (ix2 (0 : Fin 1) c))) j
      = lin A X Wl Wr (fun c => B (ix2 (0 : Fin 1) c)) (eO j) := by
  obtain ⟨p, c, rfl⟩ : ∃ (p : Fin M) (c : Fin C), j = ix2 p c := ⟨j 0, j 1, eq_ix2 j⟩
  have hWl' : (fun y => Wl (eWl y)) = Wl := funext fun y => congrArg Wl (hWl y)
  have hWr' : (fun y => Wr (eWr y)) = Wr := funext fun y => congrArg Wr (hWr y)
  have hB' : (fun c : Fin C => B (eB (ix2 (0 : Fin 1) c))) = fun c => B (ix2 (0 : Fin 1) c) :=
    funext fun c => congrArg B (hB _)
  rw [hO, hWl', hWr', hB']
  exact lin_row A X _ _ Wl Wr _ (row p) p c (fun k => congrArg A (hA p k)) (fun k => congrArg X (hX p k))

/-- The same after the maximum with zero. -/
theorem relu_lin_blocks {M : ℕ} (A X : (⟨2, ![N, K]⟩ : Shape).Idx → EReal) (Wl Wr : (⟨2, ![K, C]⟩ : Shape).Idx → EReal)
    (B : (⟨2, ![1, C]⟩ : Shape).Idx → EReal)
    (eA eX : (⟨2, ![M, K]⟩ : Shape).Idx → (⟨2, ![N, K]⟩ : Shape).Idx)
    (eWl eWr : (⟨2, ![K, C]⟩ : Shape).Idx → (⟨2, ![K, C]⟩ : Shape).Idx)
    (eB : (⟨2, ![1, C]⟩ : Shape).Idx → (⟨2, ![1, C]⟩ : Shape).Idx)
    (eO : (⟨2, ![M, C]⟩ : Shape).Idx → (⟨2, ![N, C]⟩ : Shape).Idx) (row : Fin M → Fin N)
    (hA : ∀ p k, eA (ix2 p k) = ix2 (row p) k) (hX : ∀ p k, eX (ix2 p k) = ix2 (row p) k)
    (hWl : ∀ y, eWl y = y) (hWr : ∀ y, eWr y = y) (hB : ∀ y, eB y = y)
    (hO : ∀ p c, eO (ix2 p c) = ix2 (row p) c) (j : (⟨2, ![M, C]⟩ : Shape).Idx) :
    relu (lin (fun y => A (eA y)) (fun y => X (eX y)) (fun y => Wl (eWl y)) (fun y => Wr (eWr y))
        (fun c => B (eB (ix2 (0 : Fin 1) c)))) j
      = relu (lin A X Wl Wr (fun c => B (ix2 (0 : Fin 1) c))) (eO j) :=
  congrArg (fun v => max v 0) (lin_blocks A X Wl Wr B eA eX eWl eWr eB eO row hA hX hWl hWr hB hO j)

/-! ## The mean: a product with the reciprocal, or a quotient -/

/-- Multiplying by the reciprocal of a positive real is dividing by it, at the infinities too. -/
theorem mean_law (a d : EReal) (hd : ∃ r : ℝ, 0 < r ∧ d = (r : EReal)) : a * Ideal.div 1 d = Ideal.div a d := by
  obtain ⟨r, hr, rfl⟩ := hd
  rw [Ideal.div_coe hr.ne', Ideal.div_coe hr.ne', one_mul]

/-- THE PRODUCT FORM: the table times the per-node reciprocal `1 / d`, spread along the lanes, is the mean. -/
theorem aggMul_eq (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (S : FVec Ideal ⟨2, ![N, K]⟩ .f32) (one d : FVec Ideal ⟨1, ![N]⟩ .f32) (hone : ∀ j, one j = 1)
    (hpos : ∀ i : Fin N, ∃ r : ℝ, 0 < r ∧ d (ix1 i) = (r : EReal)) :
    mulf S (broadcastInDim ⟨2, ![N, K]⟩ (![0, 1] : Fin 2 → Fin 2) h2
        (broadcastInDim ⟨2, ![N, 1]⟩ (![0] : Fin 1 → Fin 2) h1 (Host.divf one d)))
      = meanOf S (fun i => d (ix1 i)) := by
  funext j
  obtain ⟨p, k, rfl⟩ : ∃ (p : Fin N) (k : Fin K), j = ix2 p k := ⟨j 0, j 1, eq_ix2 j⟩
  rw [mulf_apply, Cert.Sage.Read.spread_apply]
  show S (ix2 p k) * Ideal.div (one (ix1 p)) (d (ix1 p)) = Ideal.div (S (ix2 p k)) (d (ix1 p))
  rw [hone]
  exact mean_law _ _ (hpos p)

/-- THE QUOTIENT FORM: the table divided by the column of clamped in-degrees, spread along the lanes, is the mean. -/
theorem aggDiv_eq (h2 : (⟨2, ![N, 1]⟩ : Shape).BroadcastsInDim ⟨2, ![N, K]⟩ (![0, 1] : Fin 2 → Fin 2))
    (S : FVec Ideal ⟨2, ![N, K]⟩ .f32) (d : FVec Ideal ⟨2, ![N, 1]⟩ .f32) :
    Host.divf S (broadcastInDim ⟨2, ![N, K]⟩ (![0, 1] : Fin 2 → Fin 2) h2 d)
      = meanOf S (fun i => d (ix2 i (0 : Fin 1))) := by
  funext j
  obtain ⟨p, k, rfl⟩ : ∃ (p : Fin N) (k : Fin K), j = ix2 p k := ⟨j 0, j 1, eq_ix2 j⟩
  show Ideal.div (S (ix2 p k)) (broadcastInDim ⟨2, ![N, K]⟩ (![0, 1] : Fin 2 → Fin 2) h2 d (ix2 p k)) = _
  rw [Cert.Lib.BroadcastInDim.col_lanes_apply]
  rfl

/-- The clamped in-degree is the same number whether the edges are counted into a column `[N, 1]` (ones `[E, 1]`
    scattered as rows) or into a vector `[N]` (ones `[E]` scattered as cells): both are the maximum of one and the
    number of edges whose destination word names the node. -/
theorem deg_rows_eq_cells {w : ℕ}
    (wfr : ScatterDims.WF ⟨2, ![N, 1]⟩ ⟨2, ![E, 1]⟩ ⟨2, ![E, 1]⟩ [1] [0] [0] 1)
    (wfc : ScatterDims.WF ⟨1, ![N]⟩ ⟨2, ![E, 1]⟩ ⟨1, ![E]⟩ [] [0] [0] 1)
    (z1 o1 : FVec Ideal ⟨2, ![N, 1]⟩ .f32) (u1 : FVec Ideal ⟨2, ![E, 1]⟩ .f32)
    (z o : FVec Ideal ⟨1, ![N]⟩ .f32) (u : FVec Ideal ⟨1, ![E]⟩ .f32)
    (hz1 : ∀ j, z1 j = 0) (ho1 : ∀ j, o1 j = 1) (hu1 : ∀ j, u1 j = 1)
    (hz : ∀ j, z j = 0) (ho : ∀ j, o j = 1) (hu : ∀ j, u j = 1)
    (D : IVec ⟨2, ![E, 1]⟩ w) (i : Fin N) :
    maximumf (Host.scatterAdd (SegmentSum.rowsDims N E 1 wfr) z1 D u1) o1 (ix2 i (0 : Fin 1))
      = maximumf (Host.scatterAdd (SegmentSum.cellsDims N E wfc) z D u) o (ix1 i) := by
  rw [maximumf_apply, maximumf_apply, SegmentSum.scatterAdd_rows_apply, SegmentSum.scatterAdd_cells_apply,
    hz1, ho1, hz, ho]
  simp only [hu1, hu]

/-! ## The affine part, from whole matrix products and from a block's -/

/-- Two whole matrix products and a bias vector laid out as a row and repeated down the rows. -/
theorem refLin_eq (hb1 : (⟨1, ![C]⟩ : Shape).BroadcastsInDim ⟨2, ![1, C]⟩ (![1] : Fin 1 → Fin 2))
    (hb2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral (DotDims.plain N K C) none A Wl) (Host.dotGeneral (DotDims.plain N K C) none X Wr))
        (broadcastInDim ⟨2, ![N, C]⟩ (![0, 1] : Fin 2 → Fin 2) hb2
          (broadcastInDim ⟨2, ![1, C]⟩ (![1] : Fin 1 → Fin 2) hb1 b))
      = lin A X Wl Wr (fun c => b (ix1 c)) := by
  funext j
  obtain ⟨p, c, rfl⟩ : ∃ (p : Fin N) (c : Fin C), j = ix2 p c := ⟨j 0, j 1, eq_ix2 j⟩
  rw [addf_apply, addf_apply, Cert.Lib.BroadcastInDim.row_rows_apply, Cert.Lib.BroadcastInDim.vec_row_apply]
  simp only [Host.dotGeneral]
  rw [Cert.Lib.PlainDot.dotGeneral_plain_apply, Cert.Lib.PlainDot.dotGeneral_plain_apply]
  rfl

/-- Two matrix-unit products of a block of `M` rows into zero accumulators and the bias row repeated down the
    block's rows. The operands may be held in any float formats: a format is not part of an extended real. -/
theorem bodyLin_eq {M : ℕ} {φ₁ φ₂ : FTy} (hbc : (⟨2, ![1, C]⟩ : Shape).Broadcasts ⟨2, ![M, C]⟩)
    (A X : FVec Ideal ⟨2, ![M, K]⟩ φ₁) (Wl Wr : FVec Ideal ⟨2, ![K, C]⟩ φ₂) (b1 : FVec Ideal ⟨2, ![1, C]⟩ .f32) :
    addf (addf (matmul (DotDims.plain M K C) none A Wl (constant ⟨2, ![M, C]⟩ .f32 0x00000000#32))
          (matmul (DotDims.plain M K C) none X Wr (constant ⟨2, ![M, C]⟩ .f32 0x00000000#32)))
        (broadcastTo ⟨2, ![M, C]⟩ b1 hbc)
      = lin (N := M) A X Wl Wr (fun c => b1 (ix2 (0 : Fin 1) c)) := by
  funext j
  obtain ⟨p, c, rfl⟩ : ∃ (p : Fin M) (c : Fin C), j = ix2 p c := ⟨j 0, j 1, eq_ix2 j⟩
  rw [addf_apply, addf_apply, broadcastTo_1b_ab_apply]
  simp only [matmul]
  rw [Cert.Lib.PlainDot.matmul_plain_zero_apply, Cert.Lib.PlainDot.matmul_plain_zero_apply]
  rfl

/-! ## The maximum with zero -/

/-- A host maximum with the zero constant broadcast to the table's shape. -/
theorem relu_host (h0 : (⟨0, ![]⟩ : Shape).BroadcastsInDim ⟨2, ![N, C]⟩ (![] : Fin 0 → Fin 2))
    (y : FVec Ideal ⟨2, ![N, C]⟩ .f32) :
    maximumf y (broadcastInDim ⟨2, ![N, C]⟩ (![] : Fin 0 → Fin 2) h0 (constant ⟨0, ![]⟩ .f32 0x00000000#32)) = relu y := by
  funext j
  rw [maximumf_apply, Cert.Lib.BroadcastInDim.scalar_apply, constant_apply, Ideal.ofBits_zero_f32]
  rfl

/-- A vector-unit maximum with the zero word splat over the block. -/
theorem relu_body (y : FVec Ideal ⟨2, ![N, C]⟩ .f32) :
    maximumf y (broadcast ⟨2, ![N, C]⟩ (Scalar.ofBits (F := Ideal) .f32 0x00000000#32)) = relu y := by
  funext j
  rw [maximumf_apply, broadcast_apply]
  show max (y j) (Ideal.ofBits .f32 0x00000000#32) = max (y j) 0
  rw [Ideal.ofBits_zero_f32]

/-! ## The whole layer -/

/-- The table of neighbour sums: row `S[e]` of the node table gathered for every edge `e` and added onto row `D[e]` of
    a zero table. -/
def sums {w : ℕ} (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (z : FVec Ideal ⟨2, ![N, K]⟩ .f32) (D S : IVec ⟨2, ![E, 1]⟩ w) (X : FVec Ideal ⟨2, ![N, K]⟩ .f32) :
    FVec Ideal ⟨2, ![N, K]⟩ .f32 :=
  Host.scatterAdd (SegmentSum.rowsDims N E K wfs) z D (Host.gather (Cert.LibGatherRows.rowsDims N K E wfg) X S)

/-- The clamped in-degree of node `i`: ones scattered onto a zero vector at the destination words, then the maximum
    with one. -/
def clampDeg {w : ℕ} (wfc : ScatterDims.WF ⟨1, ![N]⟩ ⟨2, ![E, 1]⟩ ⟨1, ![E]⟩ [] [0] [0] 1)
    (z o : FVec Ideal ⟨1, ![N]⟩ .f32) (u : FVec Ideal ⟨1, ![E]⟩ .f32) (D : IVec ⟨2, ![E, 1]⟩ w) : Fin N → EReal :=
  fun i => maximumf (Host.scatterAdd (SegmentSum.cellsDims N E wfc) z D u) o (ix1 i)

/-- It is a positive real. -/
theorem clampDeg_pos {w : ℕ} (wfc : ScatterDims.WF ⟨1, ![N]⟩ ⟨2, ![E, 1]⟩ ⟨1, ![E]⟩ [] [0] [0] 1)
    (z o : FVec Ideal ⟨1, ![N]⟩ .f32) (u : FVec Ideal ⟨1, ![E]⟩ .f32) (hz : ∀ j, z j = 0) (ho : ∀ j, o j = 1)
    (hu : ∀ j, u j = 1) (D : IVec ⟨2, ![E, 1]⟩ w) (i : Fin N) :
    ∃ r : ℝ, 0 < r ∧ clampDeg wfc z o u D i = (r : EReal) :=
  Cert.Sage.Read.degree_pos_real wfc z o hz ho u hu D i

/-- A HIDDEN LAYER as one function of the node table: the mean of the neighbour sums against `Wl`, the table itself
    against `Wr`, the bias, the maximum with zero. -/
def hidden {w : ℕ} (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (z : FVec Ideal ⟨2, ![N, K]⟩ .f32) (D S : IVec ⟨2, ![E, 1]⟩ w) (d : Fin N → EReal)
    (Wl Wr : FVec Ideal ⟨2, ![K, C]⟩ .f32) (b : FVec Ideal ⟨1, ![C]⟩ .f32) (X : FVec Ideal ⟨2, ![N, K]⟩ .f32) :
    FVec Ideal ⟨2, ![N, C]⟩ .f32 :=
  relu (lin (meanOf (sums wfg wfs z D S X) d) X Wl Wr (fun c => b (ix1 c)))

/-- THE LAST LAYER: the same without the maximum. -/
def final {w : ℕ} (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (z : FVec Ideal ⟨2, ![N, K]⟩ .f32) (D S : IVec ⟨2, ![E, 1]⟩ w) (d : Fin N → EReal)
    (Wl Wr : FVec Ideal ⟨2, ![K, C]⟩ .f32) (b : FVec Ideal ⟨1, ![C]⟩ .f32) (X : FVec Ideal ⟨2, ![N, K]⟩ .f32) :
    FVec Ideal ⟨2, ![N, C]⟩ .f32 :=
  lin (meanOf (sums wfg wfs z D S X) d) X Wl Wr (fun c => b (ix1 c))

/-- A hidden layer computed with the quotient form of the mean, whole matrix products and a host maximum. -/
theorem quotientLayer_relu_eq (hbK : (⟨2, ![N, 1]⟩ : Shape).BroadcastsInDim ⟨2, ![N, K]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (S X : FVec Ideal ⟨2, ![N, K]⟩ .f32) (d : FVec Ideal ⟨2, ![N, 1]⟩ .f32)
    (Wl Wr : FVec Ideal ⟨2, ![K, C]⟩ .f32) (b : FVec Ideal ⟨1, ![C]⟩ .f32) :
    maximumf (addf (addf (Host.dotGeneral (DotDims.plain N K C) none
            (Host.divf S (broadcastInDim ⟨2, ![N, K]⟩ (![0, 1] : Fin 2 → Fin 2) hbK d)) Wl)
          (Host.dotGeneral (DotDims.plain N K C) none X Wr))
        (broadcastInDim ⟨2, ![N, C]⟩ (![0, 1] : Fin 2 → Fin 2) hb2
          (broadcastInDim ⟨2, ![1, C]⟩ (![1] : Fin 1 → Fin 2) hb1 b)))
      (broadcastInDim ⟨2, ![N, C]⟩ (![] : Fin 0 → Fin 2) h0 (constant ⟨0, ![]⟩ .f32 0x00000000#32))
      = relu (lin (meanOf S (fun i => d (ix2 i (0 : Fin 1)))) X Wl Wr (fun c => b (ix1 c))) := by
  refine (relu_host h0 _).trans (congrArg relu ?_)
  refine (refLin_eq hb1 hb2 _ X Wl Wr b).trans ?_
  rw [aggDiv_eq]

/-- The last layer, computed the same way without the maximum. -/
theorem quotientLayer_eq (hbK : (⟨2, ![N, 1]⟩ : Shape).BroadcastsInDim ⟨2, ![N, K]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![N, C]⟩ (![0, 1] : Fin 2 → Fin 2))
    (S X : FVec Ideal ⟨2, ![N, K]⟩ .f32) (d : FVec Ideal ⟨2, ![N, 1]⟩ .f32)
    (Wl Wr : FVec Ideal ⟨2, ![K, C]⟩ .f32) (b : FVec Ideal ⟨1, ![C]⟩ .f32) :
    addf (addf (Host.dotGeneral (DotDims.plain N K C) none
            (Host.divf S (broadcastInDim ⟨2, ![N, K]⟩ (![0, 1] : Fin 2 → Fin 2) hbK d)) Wl)
          (Host.dotGeneral (DotDims.plain N K C) none X Wr))
        (broadcastInDim ⟨2, ![N, C]⟩ (![0, 1] : Fin 2 → Fin 2) hb2
          (broadcastInDim ⟨2, ![1, C]⟩ (![1] : Fin 1 → Fin 2) hb1 b))
      = lin (meanOf S (fun i => d (ix2 i (0 : Fin 1)))) X Wl Wr (fun c => b (ix1 c)) := by
  refine (refLin_eq hb1 hb2 _ X Wl Wr b).trans ?_
  rw [aggDiv_eq]

end Cert.Sage.Layer

end
-- ==== Proof.KernelLayer0.lean ====
/-
  Region 0 of the idealized kernel program: one dense layer over the 100000 nodes in 50 blocks of 2000 rows.

  At grid point `t` the body loads rows `2000·t … 2000·t + 1999` of the aggregated table (`[100000, 128]`) and of the node
  table, the two weight matrices `[128, 64]` and the bias row `[1, 64]` whole, and stores, for each of its rows `p` and each
  column `c`,  sum_k agg (p,k) · Wl (k,c)  +  sum_k x (p,k) · Wr (k,c)  +  b (0,c), then the maximum with zero: two matrix-unit products into zero
  accumulators, the bias row repeated down the block (the narrowing of the operands to bf16 does not change an
  extended real). An entry of that result depends only on its own row of the two tables, so the block written back at
  point `t` is rows `2000·t …` of ONE function of the whole arrays (`out`), and since the 50 blocks tile the result array
  it ends holding that function, whatever the region finds in its arrays when it is entered (`arr_eq`).
-/
import proofs.«136466_j6270652252188_1_alg».proof.Proof.Gen.KernelIdeal.Frame
import proofs.«136466_j6270652252188_1_alg».proof.Proof.LibMeanLayer
import Idealize.ShloMosaic.Lib.Pipeline.Value

set_option maxRecDepth 16384

noncomputable section

namespace Cert.KernelIdeal.Layer0

open Cert.KernelIdeal Cert.KernelIdeal.Gen Cert.Sage.Layer
open Idealize.ShloMosaic Idealize.ShloMosaic.TcCoe Idealize.ShloMosaic.ValueIdx Idealize.SL.Sem
open Idealize.ShloMosaic.Pipeline (Dat Cfg Window)

-- the region-entry contents of the TensorCore's buffers: any
variable (V : (c : Dev nD) → (b : Ref sig .tc) → Buf (Elt Ideal) ((c : Thread nD τ).loc b))

theorem hz : (![0, 0] : Fin 2 → Nat) = fun _ => 0 := funext fun a => by fin_cases a <;> rfl

/-! ## The body's value on a block -/

/-- The value the body stores is the dense layer of the five blocks it loads. -/
theorem pay_eq (v0 v3 : Vec Ideal S2000x128 .f32) (v5 v7 : Vec Ideal S128x64 .f32) (v12 : Vec Ideal S1x64 .f32) :
    k0_pay1 (F := Ideal) v0 v3 v5 v7 v12
      = relu (lin (N := 2000) (K := 128) (C := 64) v0 v3 v5 v7 (fun c => v12 (ix2 (0 : Fin 1) c))) := by
  unfold k0_pay1
  dsimp only
  simp only [shapeCast_self]
  refine (relu_body _).trans (congrArg relu ?_)
  exact bodyLin_eq broadcasts_S1x64_S2000x64 _ _ _ _ v12

/-! ## Where each window's block sits -/

/-- The printed index maps over the grid: the two row-blocked inputs and the output are at block row `t`, block column
    0; the weights and the bias are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block at point `t` is row `2000·t + p` of the array. -/
def row (t : Fin cfg0.N) (p : Fin 2000) : Fin 100000 :=
  ⟨t.val * 2000 + p.val, by have ht : t.val < 50 := t.isLt; have hp := p.isLt; omega⟩

theorem emb0 (t : Fin cfg0.N) (p : Fin 2000) (k : Fin 128) :
    ((cfg0.win 0).blk t).view.emb (ix2 p k) = ix2 (row t p) k := by
  obtain ⟨e00, e01, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem emb1 (t : Fin cfg0.N) (p : Fin 2000) (k : Fin 128) :
    ((cfg0.win 1).blk t).view.emb (ix2 p k) = ix2 (row t p) k := by
  obtain ⟨-, -, e10, e11, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem emb2 (t : Fin cfg0.N) (y : S128x64.Idx) : ((cfg0.win 2).blk t).view.emb y = y := by
  obtain ⟨-, -, -, -, e20, e21, -⟩ := idx_facts t
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

theorem emb3 (t : Fin cfg0.N) (y : S128x64.Idx) : ((cfg0.win 3).blk t).view.emb y = y := by
  obtain ⟨-, -, -, -, -, -, e30, e31, -⟩ := idx_facts t
  funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

theorem emb4 (t : Fin cfg0.N) (y : S1x64.Idx) : ((cfg0.win 4).blk t).view.emb y = y := by
  obtain ⟨-, -, -, -, -, -, -, -, e40, e41, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem emb5 (t : Fin cfg0.N) (p : Fin 2000) (c : Fin 64) :
    ((cfg0.win 5).blk t).view.emb (ix2 p c) = ix2 (row t p) c := by
  obtain ⟨-, -, -, -, -, -, -, -, -, -, e50, e51⟩ := idx_facts t
  funext a; apply Fin.ext
  match a with
  | ⟨0, _⟩ => show win0_5.index t (0 : Fin 2) * 2000 + 1 * p.val = t.val * 2000 + p.val; omega
  | ⟨1, _⟩ => show win0_5.index t (1 : Fin 2) * 64 + 1 * c.val = c.val; omega

/-! ## The result array -/

/-- What the result array ends holding: the dense layer of the region's five argument arrays as it finds them. -/
def out (c : Dev nD) : S100000x64.Idx → EReal :=
  relu (lin (N := 100000) (K := 128) (C := 64) (V c main_v24) (V c main_arg0) (V c main_arg3) (V c main_arg4)
    (fun c' => V c main_v25 (ix2 (0 : Fin 1) c')))

/-- WHAT POINT `t` WRITES BACK is block `t` of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x64) hz, View.ld_unit_zero (S := S1x64) hz]
  rw [pay_eq]
  funext j
  exact relu_lin_blocks (N := 100000) (M := 2000) (K := 128) (C := 64) (V c main_v24) (V c main_arg0) (V c main_arg3) (V c main_arg4) (V c main_v25)
    ((cfg0.win 0).blk t).view.emb ((cfg0.win 1).blk t).view.emb ((cfg0.win 2).blk t).view.emb
    ((cfg0.win 3).blk t).view.emb ((cfg0.win 4).blk t).view.emb ((cfg0.win 5).blk t).view.emb (row t)
    (emb0 t) (emb1 t) (emb2 t) (emb3 t) (emb4 t) (emb5 t) j

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v26).slice (win0_5.rect t)).set ↔ _
  rw [View.set_slice_whole, Rect.mem_set_unit]
  exact Iff.rfl

/-- The blocks tile the result array: row `r` is in the block of point `r / 2000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by show _ < 50; omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 64 ≤ (i 1).val ∧ (i 1).val < win0_5.index t (1 : Fin 2) * 64 + 64
    omega

/-- THE RESULT ARRAY after the region: the dense layer of the arrays the region was entered with. -/
theorem arr_eq (c : Dev nD) : (dat0 V c).arrAt 5 cfg0.N = out V c :=
  (dat0 V c).arrAt_eq_of_cover 5 (out V c) (fun t _ => flushed_eq V c t) cover

end Cert.KernelIdeal.Layer0

end
-- ==== Proof.KernelLayer1.lean ====
/-
  Region 1 of the idealized kernel program: one dense layer over the 100000 nodes in 50 blocks of 2000 rows.

  At grid point `t` the body loads rows `2000·t … 2000·t + 1999` of the aggregated table (`[100000, 64]`) and of the node
  table, the two weight matrices `[64, 32]` and the bias row `[1, 32]` whole, and stores, for each of its rows `p` and each
  column `c`,  sum_k agg (p,k) · Wl (k,c)  +  sum_k x (p,k) · Wr (k,c)  +  b (0,c), then the maximum with zero: two matrix-unit products into zero
  accumulators, the bias row repeated down the block (the narrowing of the operands to bf16 does not change an
  extended real). An entry of that result depends only on its own row of the two tables, so the block written back at
  point `t` is rows `2000·t …` of ONE function of the whole arrays (`out`), and since the 50 blocks tile the result array
  it ends holding that function, whatever the region finds in its arrays when it is entered (`arr_eq`).
-/
import proofs.«136466_j6270652252188_1_alg».proof.Proof.Gen.KernelIdeal.Frame
import proofs.«136466_j6270652252188_1_alg».proof.Proof.LibMeanLayer
import Idealize.ShloMosaic.Lib.Pipeline.Value

set_option maxRecDepth 16384

noncomputable section

namespace Cert.KernelIdeal.Layer1

open Cert.KernelIdeal Cert.KernelIdeal.Gen Cert.Sage.Layer
open Idealize.ShloMosaic Idealize.ShloMosaic.TcCoe Idealize.ShloMosaic.ValueIdx Idealize.SL.Sem
open Idealize.ShloMosaic.Pipeline (Dat Cfg Window)

-- the region-entry contents of the TensorCore's buffers: any
variable (V : (c : Dev nD) → (b : Ref sig .tc) → Buf (Elt Ideal) ((c : Thread nD τ).loc b))

theorem hz : (![0, 0] : Fin 2 → Nat) = fun _ => 0 := funext fun a => by fin_cases a <;> rfl

/-! ## The body's value on a block -/

/-- The value the body stores is the dense layer of the five blocks it loads. -/
theorem pay_eq (v0 v3 : Vec Ideal S2000x64 .f32) (v5 v7 : Vec Ideal S64x32 .f32) (v12 : Vec Ideal S1x32 .f32) :
    k1_pay1 (F := Ideal) v0 v3 v5 v7 v12
      = relu (lin (N := 2000) (K := 64) (C := 32) v0 v3 v5 v7 (fun c => v12 (ix2 (0 : Fin 1) c))) := by
  unfold k1_pay1
  dsimp only
  simp only [shapeCast_self]
  refine (relu_body _).trans (congrArg relu ?_)
  exact bodyLin_eq broadcasts_S1x32_S2000x32 _ _ _ _ v12

/-! ## Where each window's block sits -/

/-- The printed index maps over the grid: the two row-blocked inputs and the output are at block row `t`, block column
    0; the weights and the bias are at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the block at point `t` is row `2000·t + p` of the array. -/
def row (t : Fin cfg1.N) (p : Fin 2000) : Fin 100000 :=
  ⟨t.val * 2000 + p.val, by have ht : t.val < 50 := t.isLt; have hp := p.isLt; omega⟩

theorem emb0 (t : Fin cfg1.N) (p : Fin 2000) (k : Fin 64) :
    ((cfg1.win 0).blk t).view.emb (ix2 p k) = ix2 (row t p) k := by
  obtain ⟨e00, e01, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 64 + 1 * k.val = k.val; omega

theorem emb1 (t : Fin cfg1.N) (p : Fin 2000) (k : Fin 64) :
    ((cfg1.win 1).blk t).view.emb (ix2 p k) = ix2 (row t p) k := by
  obtain ⟨-, -, e10, e11, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 64 + 1 * k.val = k.val; omega

theorem emb2 (t : Fin cfg1.N) (y : S64x32.Idx) : ((cfg1.win 2).blk t).view.emb y = y := by
  obtain ⟨-, -, -, -, e20, e21, -⟩ := idx_facts t
  funext a; apply Fin.ext
  match a with
  | ⟨0, _⟩ => show win1_2.index t (0 : Fin 2) * 64 + 1 * (y 0).val = (y 0).val; omega
  | ⟨1, _⟩ => show win1_2.index t (1 : Fin 2) * 32 + 1 * (y 1).val = (y 1).val; omega

theorem emb3 (t : Fin cfg1.N) (y : S64x32.Idx) : ((cfg1.win 3).blk t).view.emb y = y := by
  obtain ⟨-, -, -, -, -, -, e30, e31, -⟩ := idx_facts t
  funext a; apply Fin.ext
  match a with
  | ⟨0, _⟩ => show win1_3.index t (0 : Fin 2) * 64 + 1 * (y 0).val = (y 0).val; omega
  | ⟨1, _⟩ => show win1_3.index t (1 : Fin 2) * 32 + 1 * (y 1).val = (y 1).val; omega

theorem emb4 (t : Fin cfg1.N) (y : S1x32.Idx) : ((cfg1.win 4).blk t).view.emb y = y := by
  obtain ⟨-, -, -, -, -, -, -, -, e40, e41, -⟩ := idx_facts t
  funext a; apply Fin.ext
  match a with
  | ⟨0, _⟩ => show win1_4.index t (0 : Fin 2) * 1 + 1 * (y 0).val = (y 0).val; omega
  | ⟨1, _⟩ => show win1_4.index t (1 : Fin 2) * 32 + 1 * (y 1).val = (y 1).val; omega

theorem emb5 (t : Fin cfg1.N) (p : Fin 2000) (c : Fin 32) :
    ((cfg1.win 5).blk t).view.emb (ix2 p c) = ix2 (row t p) c := by
  obtain ⟨-, -, -, -, -, -, -, -, -, -, e50, e51⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 32 + 1 * c.val = c.val; omega

/-! ## The result array -/

/-- What the result array ends holding: the dense layer of the region's five argument arrays as it finds them. -/
def out (c : Dev nD) : S100000x32.Idx → EReal :=
  relu (lin (N := 100000) (K := 64) (C := 32) (V c main_v38) (V c main_v26) (V c main_arg6) (V c main_arg7)
    (fun c' => V c main_v39 (ix2 (0 : Fin 1) c')))

/-- WHAT POINT `t` WRITES BACK is block `t` of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S2000x64) hz, View.ld_unit_zero (S := S64x32) hz, View.ld_unit_zero (S := S1x32) hz]
  rw [pay_eq]
  funext j
  exact relu_lin_blocks (N := 100000) (M := 2000) (K := 64) (C := 32) (V c main_v38) (V c main_v26) (V c main_arg6) (V c main_arg7) (V c main_v39)
    ((cfg1.win 0).blk t).view.emb ((cfg1.win 1).blk t).view.emb ((cfg1.win 2).blk t).view.emb
    ((cfg1.win 3).blk t).view.emb ((cfg1.win 4).blk t).view.emb ((cfg1.win 5).blk t).view.emb (row t)
    (emb0 t) (emb1 t) (emb2 t) (emb3 t) (emb4 t) (emb5 t) j

/-- An index of the result array is in point `t`'s block iff each coordinate is in the block's range on its axis. -/
theorem mem_blk (t : Fin cfg1.N) (i : S100000x32.Idx) :
    i ∈ ((cfg1.win 5).blk t).view.set ↔ ∀ a : Fin 2, win1_5.index t a * S2000x32.size a ≤ (i a).val
      ∧ (i a).val < win1_5.index t a * S2000x32.size a + S2000x32.size a := by
  show i ∈ ((View.whole main_v40).slice (win1_5.rect t)).set ↔ _
  rw [View.set_slice_whole, Rect.mem_set_unit]
  exact Iff.rfl

/-- The blocks tile the result array: row `r` is in the block of point `r / 2000`. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 2000 :=
    ⟨⟨(i 0).val / 2000, by show _ < 50; omega⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 32 ≤ (i 1).val ∧ (i 1).val < win1_5.index t (1 : Fin 2) * 32 + 32
    omega

/-- THE RESULT ARRAY after the region: the dense layer of the arrays the region was entered with. -/
theorem arr_eq (c : Dev nD) : (dat1 V c).arrAt 5 cfg1.N = out V c :=
  (dat1 V c).arrAt_eq_of_cover 5 (out V c) (fun t _ => flushed_eq V c t) cover

end Cert.KernelIdeal.Layer1

end
-- ==== Proof.KernelLayer2.lean ====
/-
  Region 2 of the idealized kernel program: one dense layer over the 100000 nodes in 50 blocks of 2000 rows.

  At grid point `t` the body loads rows `2000·t … 2000·t + 1999` of the aggregated table (`[100000, 32]`) and of the node
  table, the two weight matrices `[32, 16]` and the bias row `[1, 16]` whole, and stores, for each of its rows `p` and each
  column `c`,  sum_k agg (p,k) · Wl (k,c)  +  sum_k x (p,k) · Wr (k,c)  +  b (0,c), then the maximum with zero: two matrix-unit products into zero
  accumulators, the bias row repeated down the block (the narrowing of the operands to bf16 does not change an
  extended real). An entry of that result depends only on its own row of the two tables, so the block written back at
  point `t` is rows `2000·t …` of ONE function of the whole arrays (`out`), and since the 50 blocks tile the result array
  it ends holding that function, whatever the region finds in its arrays when it is entered (`arr_eq`).
-/
import proofs.«136466_j6270652252188_1_alg».proof.Proof.Gen.KernelIdeal.Frame
import proofs.«136466_j6270652252188_1_alg».proof.Proof.LibMeanLayer
import Idealize.ShloMosaic.Lib.Pipeline.Value

set_option maxRecDepth 16384

noncomputable section

namespace Cert.KernelIdeal.Layer2

open Cert.KernelIdeal Cert.KernelIdeal.Gen Cert.Sage.Layer
open Idealize.ShloMosaic Idealize.ShloMosaic.TcCoe Idealize.ShloMosaic.ValueIdx Idealize.SL.Sem
open Idealize.ShloMosaic.Pipeline (Dat Cfg Window)

-- the region-entry contents of the TensorCore's buffers: any
variable (V : (c : Dev nD) → (b : Ref sig .tc) → Buf (Elt Ideal) ((c : Thread nD τ).loc b))

theorem hz : (![0, 0] : Fin 2 → Nat) = fun _ => 0 := funext fun a => by fin_cases a <;> rfl

/-! ## The body's value on a block -/

/-- The value the body stores is the dense layer of the five blocks it loads. -/
theorem pay_eq (v0 v3 : Vec Ideal S2000x32 .f32) (v5 v7 : Vec Ideal S32x16 .f32) (v12 : Vec Ideal S1x16 .f32) :
    k2_pay1 (F := Ideal) v0 v3 v5 v7 v12
      = relu (lin (N := 2000) (K := 32) (C := 16) v0 v3 v5 v7 (fun c => v12 (ix2 (0 : Fin 1) c))) := by
  unfold k2_pay1
  dsimp only
  simp only [shapeCast_self]
  refine (relu_body _).trans (congrArg relu ?_)
  exact bodyLin_eq broadcasts_S1x16_S2000x16 _ _ _ _ v12

/-! ## Where each window's block sits -/

/-- The printed index maps over the grid: the two row-blocked inputs and the output are at block row `t`, block column
    0; the weights and the bias are at block (0, 0) at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the block at point `t` is row `2000·t + p` of the array. -/
def row (t : Fin cfg2.N) (p : Fin 2000) : Fin 100000 :=
  ⟨t.val * 2000 + p.val, by have ht : t.val < 50 := t.isLt; have hp := p.isLt; omega⟩

theorem emb0 (t : Fin cfg2.N) (p : Fin 2000) (k : Fin 32) :
    ((cfg2.win 0).blk t).view.emb (ix2 p k) = ix2 (row t p) k := by
  obtain ⟨e00, e01, -⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 32 + 1 * k.val = k.val; omega

theorem emb1 (t : Fin cfg2.N) (p : Fin 2000) (k : Fin 32) :
    ((cfg2.win 1).blk t).view.emb (ix2 p k) = ix2 (row t p) k := by
  obtain ⟨-, -, e10, e11, -⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 32 + 1 * k.val = k.val; omega

theorem emb2 (t : Fin cfg2.N) (y : S32x16.Idx) : ((cfg2.win 2).blk t).view.emb y = y := by
  obtain ⟨-, -, -, -, e20, e21, -⟩ := idx_facts t
  funext a; apply Fin.ext
  match a with
  | ⟨0, _⟩ => show win2_2.index t (0 : Fin 2) * 32 + 1 * (y 0).val = (y 0).val; omega
  | ⟨1, _⟩ => show win2_2.index t (1 : Fin 2) * 16 + 1 * (y 1).val = (y 1).val; omega

theorem emb3 (t : Fin cfg2.N) (y : S32x16.Idx) : ((cfg2.win 3).blk t).view.emb y = y := by
  obtain ⟨-, -, -, -, -, -, e30, e31, -⟩ := idx_facts t
  funext a; apply Fin.ext
  match a with
  | ⟨0, _⟩ => show win2_3.index t (0 : Fin 2) * 32 + 1 * (y 0).val = (y 0).val; omega
  | ⟨1, _⟩ => show win2_3.index t (1 : Fin 2) * 16 + 1 * (y 1).val = (y 1).val; omega

theorem emb4 (t : Fin cfg2.N) (y : S1x16.Idx) : ((cfg2.win 4).blk t).view.emb y = y := by
  obtain ⟨-, -, -, -, -, -, -, -, e40, e41, -⟩ := idx_facts t
  funext a; apply Fin.ext
  match a with
  | ⟨0, _⟩ => show win2_4.index t (0 : Fin 2) * 1 + 1 * (y 0).val = (y 0).val; omega
  | ⟨1, _⟩ => show win2_4.index t (1 : Fin 2) * 16 + 1 * (y 1).val = (y 1).val; omega

theorem emb5 (t : Fin cfg2.N) (p : Fin 2000) (c : Fin 16) :
    ((cfg2.win 5).blk t).view.emb (ix2 p c) = ix2 (row t p) c := by
  obtain ⟨-, -, -, -, -, -, -, -, -, -, e50, e51⟩ := idx_facts t
  funext a; apply Fin.ext
  match a with
  | ⟨0, _⟩ => show win2_5.index t (0 : Fin 2) * 2000 + 1 * p.val = t.val * 2000 + p.val; omega
  | ⟨1, _⟩ => show win2_5.index t (1 : Fin 2) * 16 + 1 * c.val = c.val; omega

/-! ## The result array -/

/-- What the result array ends holding: the dense layer of the region's five argument arrays as it finds them. -/
def out (c : Dev nD) : S100000x16.Idx → EReal :=
  relu (lin (N := 100000) (K := 32) (C := 16) (V c main_v52) (V c main_v40) (V c main_arg9) (V c main_arg10)
    (fun c' => V c main_v53 (ix2 (0 : Fin 1) c')))

/-- WHAT POINT `t` WRITES BACK is block `t` of `out`. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S2000x32) hz, View.ld_unit_zero (S := S32x16) hz, View.ld_unit_zero (S := S1x16) hz]
  rw [pay_eq]
  funext j
  exact relu_lin_blocks (N := 100000) (M := 2000) (K := 32) (C := 16) (V c main_v52) (V c main_v40) (V c main_arg9) (V c main_arg10) (V c main_v53)
    ((cfg2.win 0).blk t).view.emb ((cfg2.win 1).blk t).view.emb ((cfg2.win 2).blk t).view.emb
    ((cfg2.win 3).blk t).view.emb ((cfg2.win 4).blk t).view.emb ((cfg2.win 5).blk t).view.emb (row t)
    (emb0 t) (emb1 t) (emb2 t) (emb3 t) (emb4 t) (emb5 t) j

/-- An index of the result array is in point `t`'s block iff each coordinate is in the block's range on its axis. -/
theorem mem_blk (t : Fin cfg2.N) (i : S100000x16.Idx) :
    i ∈ ((cfg2.win 5).blk t).view.set ↔ ∀ a : Fin 2, win2_5.index t a * S2000x16.size a ≤ (i a).val
      ∧ (i a).val < win2_5.index t a * S2000x16.size a + S2000x16.size a := by
  show i ∈ ((View.whole main_v54).slice (win2_5.rect t)).set ↔ _
  rw [View.set_slice_whole, Rect.mem_set_unit]
  exact Iff.rfl

/-- The blocks tile the result array: row `r` is in the block of point `r / 2000`. -/
theorem cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  obtain ⟨t, ht⟩ : ∃ t : Fin cfg2.N, t.val = (i 0).val / 2000 :=
    ⟨⟨(i 0).val / 2000, by show _ < 50; omega⟩, rfl⟩
  obtain ⟨-, -, -, -, -, -, -, -, -, -, e50, e51⟩ := idx_facts t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 16 ≤ (i 1).val ∧ (i 1).val < win2_5.index t (1 : Fin 2) * 16 + 16
    omega

/-- THE RESULT ARRAY after the region: the dense layer of the arrays the region was entered with. -/
theorem arr_eq (c : Dev nD) : (dat2 V c).arrAt 5 cfg2.N = out V c :=
  (dat2 V c).arrAt_eq_of_cover 5 (out V c) (fun t _ => flushed_eq V c t) cover

end Cert.KernelIdeal.Layer2

end
-- ==== Proof.KernelLayer3.lean ====
/-
  Region 3 of the idealized kernel program: one dense layer over the 100000 nodes in 50 blocks of 2000 rows.

  At grid point `t` the body loads rows `2000·t … 2000·t + 1999` of the aggregated table (`[100000, 16]`) and of the node
  table, the two weight matrices `[16, 9]` and the bias row `[1, 9]` whole, and stores, for each of its rows `p` and each
  column `c`,  sum_k agg (p,k) · Wl (k,c)  +  sum_k x (p,k) · Wr (k,c)  +  b (0,c): two matrix-unit products into zero
  accumulators, the bias row repeated down the block (the narrowing of the operands to bf16 does not change an
  extended real). An entry of that result depends only on its own row of the two tables, so the block written back at
  point `t` is rows `2000·t …` of ONE function of the whole arrays (`out`), and since the 50 blocks tile the result array
  it ends holding that function, whatever the region finds in its arrays when it is entered (`arr_eq`).
-/
import proofs.«136466_j6270652252188_1_alg».proof.Proof.Gen.KernelIdeal.Frame
import proofs.«136466_j6270652252188_1_alg».proof.Proof.LibMeanLayer
import Idealize.ShloMosaic.Lib.Pipeline.Value

set_option maxRecDepth 16384

noncomputable section

namespace Cert.KernelIdeal.Layer3

open Cert.KernelIdeal Cert.KernelIdeal.Gen Cert.Sage.Layer
open Idealize.ShloMosaic Idealize.ShloMosaic.TcCoe Idealize.ShloMosaic.ValueIdx Idealize.SL.Sem
open Idealize.ShloMosaic.Pipeline (Dat Cfg Window)

-- the region-entry contents of the TensorCore's buffers: any
variable (V : (c : Dev nD) → (b : Ref sig .tc) → Buf (Elt Ideal) ((c : Thread nD τ).loc b))

theorem hz : (![0, 0] : Fin 2 → Nat) = fun _ => 0 := funext fun a => by fin_cases a <;> rfl

/-! ## The body's value on a block -/

/-- The value the body stores is the dense layer of the five blocks it loads. -/
theorem pay_eq (v0 v3 : Vec Ideal S2000x16 .f32) (v5 v7 : Vec Ideal S16x9 .f32) (v12 : Vec Ideal S1x9 .f32) :
    k3_pay1 (F := Ideal) v0 v3 v5 v7 v12
      = (lin (N := 2000) (K := 16) (C := 9) v0 v3 v5 v7 (fun c => v12 (ix2 (0 : Fin 1) c))) := by
  unfold k3_pay1
  dsimp only
  simp only [shapeCast_self]
  exact bodyLin_eq broadcasts_S1x9_S2000x9 _ _ _ _ v12

/-! ## Where each window's block sits -/

/-- The printed index maps over the grid: the two row-blocked inputs and the output are at block row `t`, block column
    0; the weights and the bias are at block (0, 0) at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the block at point `t` is row `2000·t + p` of the array. -/
def row (t : Fin cfg3.N) (p : Fin 2000) : Fin 100000 :=
  ⟨t.val * 2000 + p.val, by have ht : t.val < 50 := t.isLt; have hp := p.isLt; omega⟩

theorem emb0 (t : Fin cfg3.N) (p : Fin 2000) (k : Fin 16) :
    ((cfg3.win 0).blk t).view.emb (ix2 p k) = ix2 (row t p) k := by
  obtain ⟨e00, e01, -⟩ := idx_facts t
  funext a; apply Fin.ext
  match a with
  | ⟨0, _⟩ => show win3_0.index t (0 : Fin 2) * 2000 + 1 * p.val = t.val * 2000 + p.val; omega
  | ⟨1, _⟩ => show win3_0.index t (1 : Fin 2) * 16 + 1 * k.val = k.val; omega

theorem emb1 (t : Fin cfg3.N) (p : Fin 2000) (k : Fin 16) :
    ((cfg3.win 1).blk t).view.emb (ix2 p k) = ix2 (row t p) k := by
  obtain ⟨-, -, e10, e11, -⟩ := idx_facts t
  funext a; apply Fin.ext
  match a with
  | ⟨0, _⟩ => show win3_1.index t (0 : Fin 2) * 2000 + 1 * p.val = t.val * 2000 + p.val; omega
  | ⟨1, _⟩ => show win3_1.index t (1 : Fin 2) * 16 + 1 * k.val = k.val; omega

theorem emb2 (t : Fin cfg3.N) (y : S16x9.Idx) : ((cfg3.win 2).blk t).view.emb y = y := by
  obtain ⟨-, -, -, -, e20, e21, -⟩ := idx_facts t
  funext a; apply Fin.ext
  match a with
  | ⟨0, _⟩ => show win3_2.index t (0 : Fin 2) * 16 + 1 * (y 0).val = (y 0).val; omega
  | ⟨1, _⟩ => show win3_2.index t (1 : Fin 2) * 9 + 1 * (y 1).val = (y 1).val; omega

theorem emb3 (t : Fin cfg3.N) (y : S16x9.Idx) : ((cfg3.win 3).blk t).view.emb y = y := by
  obtain ⟨-, -, -, -, -, -, e30, e31, -⟩ := idx_facts t
  funext a; apply Fin.ext
  match a with
  | ⟨0, _⟩ => show win3_3.index t (0 : Fin 2) * 16 + 1 * (y 0).val = (y 0).val; omega
  | ⟨1, _⟩ => show win3_3.index t (1 : Fin 2) * 9 + 1 * (y 1).val = (y 1).val; omega

theorem emb4 (t : Fin cfg3.N) (y : S1x9.Idx) : ((cfg3.win 4).blk t).view.emb y = y := by
  obtain ⟨-, -, -, -, -, -, -, -, e40, e41, -⟩ := idx_facts t
  funext a; apply Fin.ext
  match a with
  | ⟨0, _⟩ => show win3_4.index t (0 : Fin 2) * 1 + 1 * (y 0).val = (y 0).val; omega
  | ⟨1, _⟩ => show win3_4.index t (1 : Fin 2) * 9 + 1 * (y 1).val = (y 1).val; omega

theorem emb5 (t : Fin cfg3.N) (p : Fin 2000) (c : Fin 9) :
    ((cfg3.win 5).blk t).view.emb (ix2 p c) = ix2 (row t p) c := by
  obtain ⟨-, -, -, -, -, -, -, -, -, -, e50, e51⟩ := idx_facts t
  funext a; apply Fin.ext
  match a with
  | ⟨0, _⟩ => show win3_5.index t (0 : Fin 2) * 2000 + 1 * p.val = t.val * 2000 + p.val; omega
  | ⟨1, _⟩ => show win3_5.index t (1 : Fin 2) * 9 + 1 * c.val = c.val; omega

/-! ## The result array -/

/-- What the result array ends holding: the dense layer of the region's five argument arrays as it finds them. -/
def out (c : Dev nD) : S100000x9.Idx → EReal :=
  (lin (N := 100000) (K := 16) (C := 9) (V c main_v66) (V c main_v54) (V c main_arg12) (V c main_arg13)
    (fun c' => V c main_v67 (ix2 (0 : Fin 1) c')))

/-- WHAT POINT `t` WRITES BACK is block `t` of `out`. -/
theorem flushed_eq (c : Dev nD) (t : Fin cfg3.N) :
    (dat3 V c).flushed 5 t = ((cfg3.win 5).blk t).view.read (Elt Ideal) (out V c) := by
  show (cfg3.win 5).cut (grid3.coords t) ((dat3 V c).after 5 t) = _
  rw [after3_5]
  unfold out3_5
  rw [View.canon_unit_zero hz]
  simp only [View.ld_unit_zero (S := S2000x16) hz, View.ld_unit_zero (S := S16x9) hz, View.ld_unit_zero (S := S1x9) hz]
  rw [pay_eq]
  funext j
  exact lin_blocks (N := 100000) (M := 2000) (K := 16) (C := 9) (V c main_v66) (V c main_v54) (V c main_arg12) (V c main_arg13) (V c main_v67)
    ((cfg3.win 0).blk t).view.emb ((cfg3.win 1).blk t).view.emb ((cfg3.win 2).blk t).view.emb
    ((cfg3.win 3).blk t).view.emb ((cfg3.win 4).blk t).view.emb ((cfg3.win 5).blk t).view.emb (row t)
    (emb0 t) (emb1 t) (emb2 t) (emb3 t) (emb4 t) (emb5 t) j

/-- An index of the result array is in point `t`'s block iff each coordinate is in the block's range on its axis. -/
theorem mem_blk (t : Fin cfg3.N) (i : S100000x9.Idx) :
    i ∈ ((cfg3.win 5).blk t).view.set ↔ ∀ a : Fin 2, win3_5.index t a * S2000x9.size a ≤ (i a).val
      ∧ (i a).val < win3_5.index t a * S2000x9.size a + S2000x9.size a := by
  show i ∈ ((View.whole main_v68).slice (win3_5.rect t)).set ↔ _
  rw [View.set_slice_whole, Rect.mem_set_unit]
  exact Iff.rfl

/-- The blocks tile the result array: row `r` is in the block of point `r / 2000`. -/
theorem cover (i : S100000x9.Idx) :
    ∃ t : Fin cfg3.N, (cfg3.win 5).flush t = true ∧ i ∈ ((cfg3.win 5).blk t).view.set := by
  have hi0 : (i 0).val < 100000 := (i 0).isLt
  have hi1 : (i 1).val < 9 := (i 1).isLt
  obtain ⟨t, ht⟩ : ∃ t : Fin cfg3.N, t.val = (i 0).val / 2000 :=
    ⟨⟨(i 0).val / 2000, by show _ < 50; omega⟩, rfl⟩
  obtain ⟨-, -, -, -, -, -, -, -, -, -, e50, e51⟩ := idx_facts t
  refine ⟨t, flush3_5 t, ?_⟩
  rw [mem_blk]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 9 ≤ (i 1).val ∧ (i 1).val < win3_5.index t (1 : Fin 2) * 9 + 9
    omega

/-- THE RESULT ARRAY after the region: the dense layer of the arrays the region was entered with. -/
theorem arr_eq (c : Dev nD) : (dat3 V c).arrAt 5 cfg3.N = out V c :=
  (dat3 V c).arrAt_eq_of_cover 5 (out V c) (fun t _ => flushed_eq V c t) cover

end Cert.KernelIdeal.Layer3

end
-- ==== Proof.LibMeanProduct.lean ====
/-
  A layer of the mean-aggregation network computed with the PRODUCT form of the mean, on the extended reals: the table
  of neighbour sums times the per-node reciprocal of the clamped in-degree (computed once, as a column, and spread
  along the lanes), then the dense part with the bias held as a row `[1, C]`. Because the clamped in-degree is a
  positive real, this is the layer function computed with the quotient (`Cert.Sage.Layer.mean_law`); the bias row
  is the bias vector with a leading unit axis.
-/
import proofs.«136466_j6270652252188_1_alg».proof.Proof.LibMeanLayer

noncomputable section

namespace Cert.Sage.Layer

open Idealize.ShloMosaic Idealize.ShloMosaic.ValueIdx

variable {N E K C w : ℕ}

/-- The bias vector cast to a row reads, at `(0, c)`, the vector at `c`. -/
theorem biasRow_eq (hsc : (⟨1, ![C]⟩ : Shape).ShapeCasts ⟨2, ![1, C]⟩) (b : FVec Ideal ⟨1, ![C]⟩ .f32) :
    (fun c : Fin C => shapeCast ⟨2, ![1, C]⟩ b hsc (ix2 (0 : Fin 1) c)) = fun c => b (ix1 c) :=
  funext fun c => shapeCast_a_1a_apply b hsc 0 c

/-- A hidden layer from the product form of the mean and the bias as a row. -/
theorem hidden_of_product
    (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (wfc : ScatterDims.WF ⟨1, ![N]⟩ ⟨2, ![E, 1]⟩ ⟨1, ![E]⟩ [] [0] [0] 1)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (hsc : (⟨1, ![C]⟩ : Shape).ShapeCasts ⟨2, ![1, C]⟩)
    (z : FVec Ideal ⟨2, ![N, K]⟩ .f32) (D S : IVec ⟨2, ![E, 1]⟩ w)
    (zv ov : FVec Ideal ⟨1, ![N]⟩ .f32) (uv : FVec Ideal ⟨1, ![E]⟩ .f32)
    (hz : ∀ j, zv j = 0) (ho : ∀ j, ov j = 1) (hu : ∀ j, uv j = 1)
    (Wl Wr : FVec Ideal ⟨2, ![K, C]⟩ .f32) (b : FVec Ideal ⟨1, ![C]⟩ .f32) (X : FVec Ideal ⟨2, ![N, K]⟩ .f32) :
    relu (lin (mulf (sums wfg wfs z D S X)
          (broadcastInDim ⟨2, ![N, K]⟩ (![0, 1] : Fin 2 → Fin 2) h2 (broadcastInDim ⟨2, ![N, 1]⟩ (![0] : Fin 1 → Fin 2) h1
            (Host.divf ov (maximumf (Host.scatterAdd (SegmentSum.cellsDims N E wfc) zv D uv) ov)))))
        X Wl Wr (fun c => shapeCast ⟨2, ![1, C]⟩ b hsc (ix2 (0 : Fin 1) c)))
      = hidden wfg wfs z D S (clampDeg wfc zv ov uv D) Wl Wr b X := by
  rw [biasRow_eq, aggMul_eq h1 h2 _ ov _ ho (fun i => clampDeg_pos wfc zv ov uv hz ho hu D i)]
  rfl

/-- The last layer from the product form of the mean and the bias as a row. -/
theorem final_of_product
    (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (wfc : ScatterDims.WF ⟨1, ![N]⟩ ⟨2, ![E, 1]⟩ ⟨1, ![E]⟩ [] [0] [0] 1)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (hsc : (⟨1, ![C]⟩ : Shape).ShapeCasts ⟨2, ![1, C]⟩)
    (z : FVec Ideal ⟨2, ![N, K]⟩ .f32) (D S : IVec ⟨2, ![E, 1]⟩ w)
    (zv ov : FVec Ideal ⟨1, ![N]⟩ .f32) (uv : FVec Ideal ⟨1, ![E]⟩ .f32)
    (hz : ∀ j, zv j = 0) (ho : ∀ j, ov j = 1) (hu : ∀ j, uv j = 1)
    (Wl Wr : FVec Ideal ⟨2, ![K, C]⟩ .f32) (b : FVec Ideal ⟨1, ![C]⟩ .f32) (X : FVec Ideal ⟨2, ![N, K]⟩ .f32) :
    lin (mulf (sums wfg wfs z D S X)
          (broadcastInDim ⟨2, ![N, K]⟩ (![0, 1] : Fin 2 → Fin 2) h2 (broadcastInDim ⟨2, ![N, 1]⟩ (![0] : Fin 1 → Fin 2) h1
            (Host.divf ov (maximumf (Host.scatterAdd (SegmentSum.cellsDims N E wfc) zv D uv) ov)))))
        X Wl Wr (fun c => shapeCast ⟨2, ![1, C]⟩ b hsc (ix2 (0 : Fin 1) c))
      = final wfg wfs z D S (clampDeg wfc zv ov uv D) Wl Wr b X := by
  rw [biasRow_eq, aggMul_eq h1 h2 _ ov _ ho (fun i => clampDeg_pos wfc zv ov uv hz ho hu D i)]
  rfl

end Cert.Sage.Layer

end
-- ==== Proof.LibSplat.lean ====
/-
  The zero and the one of a graph network's bookkeeping: a scalar f32 constant broadcast to any shape reads, at every
  index, the extended real its word encodes — `0x00000000` the real zero (the table a scatter accumulates onto),
  `0x3F800000` the real one (an edge's count, and the floor of the in-degree).
-/
import Idealize.ShloMosaic.PureOps.Ideal.Laws
import Idealize.ShloMosaic.Lib.IdealHost
import Idealize.ShloMosaic.Lib.ValueIdx
import proofs.«136466_j6270652252188_1_alg».proof.Proof.LibBroadcastInDim

noncomputable section

namespace Cert.Sage.Splat

open Idealize.ShloMosaic Idealize.ShloMosaic.ValueIdx

/-- The zero word broadcast to any shape is zero everywhere. -/
theorem zero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  rw [Cert.Lib.BroadcastInDim.scalar_apply, constant_apply, Ideal.ofBits_zero_f32]

/-- The word of 1.0 broadcast to any shape is one everywhere. -/
theorem one_apply {t : Shape} (dims : Fin 0 → Fin t.rank) (h : (⟨0, ![]⟩ : Shape).BroadcastsInDim t dims) (j : t.Idx) :
    broadcastInDim t dims h (constant (F := Ideal) ⟨0, ![]⟩ .f32 0x3F800000#32) j = 1 := by
  rw [Cert.Lib.BroadcastInDim.scalar_apply, constant_apply, Ideal.ofBits_one_f32]

end Cert.Sage.Splat

end
-- ==== Proof.KernelNet.lean ====
/-
  The idealized kernel program's result as one function of its launch arrays.

  The first stretch of host operations splits the edge array into its source words and destination words, counts each
  node's in-degree by scattering ones onto a zero vector at the destination words, clamps it below by one, takes the
  reciprocal and lays it out as a column. Then, four times: a stretch gathers the current node table's rows at the
  source words (a negative word moved up by the table's height), adds them onto a zero table at the destination words,
  multiplies every row by its node's reciprocal in-degree and reshapes the layer's bias into a row; and a region applies
  the dense layer to the aggregated table and the node table, block of rows by block of rows (`KernelLayer0` …).
  Since the clamped in-degree is a positive real, multiplying by its reciprocal is dividing by it, and each region's
  result array is the layer function of the previous one (`Cert.Sage.Layer.hidden_of_product`): after the last region the
  result buffer holds `net4` of the launch arrays (`w8_out`).
-/
import proofs.«136466_j6270652252188_1_alg».proof.Proof.KernelCarry
import proofs.«136466_j6270652252188_1_alg».proof.Proof.KernelLayer0
import proofs.«136466_j6270652252188_1_alg».proof.Proof.KernelLayer1
import proofs.«136466_j6270652252188_1_alg».proof.Proof.KernelLayer2
import proofs.«136466_j6270652252188_1_alg».proof.Proof.KernelLayer3
import proofs.«136466_j6270652252188_1_alg».proof.Proof.LibMeanProduct
import proofs.«136466_j6270652252188_1_alg».proof.Proof.LibSplat

set_option maxRecDepth 16384

noncomputable section

namespace Cert.KernelIdeal.Net

open Cert.KernelIdeal Cert.KernelIdeal.Gen Cert.KernelIdeal.Carry Cert.Sage.Layer
open Idealize.ShloMosaic Idealize.ShloMosaic.TcCoe Idealize.ShloMosaic.StableHlo Idealize.ShloMosaic.ValueIdx Idealize.SL.Sem
open Idealize.ShloMosaic.Pipeline (Dat Cfg Window)

/-- The edge array `[2, 600000]`, a vector of edge words `[600000]`, a column of edge words `[600000, 1]`. -/
abbrev EdgeArray := (⟨S2x600000, .i32⟩ : BufTy).Contents (Elt Ideal)
abbrev EdgeWords := (⟨S600000, .i32⟩ : BufTy).Contents (Elt Ideal)
abbrev EdgeColumn := (⟨S600000x1, .i32⟩ : BufTy).Contents (Elt Ideal)

/-! ## What the host stretches compute, as functions -/

/-- Row 0 of the edge array: the source words. -/
def srcWords (a1 : EdgeArray) : EdgeWords :=
  shapeCast S600000 (extractStridedSlice S1x600000 ![0, 0] a1 slices_S2x600000_S1x600000_0_0) shapeCasts_S1x600000_S600000

/-- Row 1 of the edge array: the destination words. -/
def dstWords (a1 : EdgeArray) : EdgeWords :=
  shapeCast S600000 (extractStridedSlice S1x600000 ![1, 0] a1 slices_S2x600000_S1x600000_1_0) shapeCasts_S1x600000_S600000

/-- The destination words as a column. -/
def dstOf (v3 : EdgeWords) : EdgeColumn := broadcastInDim S600000x1 ![0] bcast_S600000_S600000x1_0 v3

/-- The source words as a column, a negative word moved up by the table's height 100000. -/
def srcOf (v1 : EdgeWords) : EdgeColumn :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 100000#32))) v1)

/-- The zero vector the in-degrees are counted onto, the vector of ones that clamps them, an edge's count of one. -/
def zeroVec : FVec Ideal S100000 .f32 := broadcastInDim S100000 ![] bcast_S_S100000 (constant (F := Ideal) S_ .f32 0x00000000#32)
def oneVec : FVec Ideal S100000 .f32 := broadcastInDim S100000 ![] bcast_S_S100000 (constant (F := Ideal) S_ .f32 0x3F800000#32)
def oneEdges : FVec Ideal S600000 .f32 := broadcastInDim S600000 ![] bcast_S_S600000 (constant (F := Ideal) S_ .f32 0x3F800000#32)

theorem zeroVec_zero (j : S100000.Idx) : zeroVec j = 0 := by unfold zeroVec; exact Cert.Sage.Splat.zero_apply _ _ j
theorem oneVec_one (j : S100000.Idx) : oneVec j = 1 := by unfold oneVec; exact Cert.Sage.Splat.one_apply _ _ j
theorem oneEdges_one (j : S600000.Idx) : oneEdges j = 1 := by unfold oneEdges; exact Cert.Sage.Splat.one_apply _ _ j

/-- The column of reciprocal clamped in-degrees. -/
def invCol (v3 : EdgeWords) : FVec Ideal S100000x1 .f32 :=
  broadcastInDim S100000x1 ![0] bcast_S100000_S100000x1_0
    (Host.divf oneVec (maximumf (Host.scatterAdd scatter_S100000_S600000x1_S600000_n_0_0_1 zeroVec (dstOf v3) oneEdges) oneVec))

/-- The clamped in-degree of each node. -/
def deg (a1 : EdgeArray) : Fin 100000 → EReal :=
  clampDeg (N := 100000) (E := 600000) (scatter_S100000_S600000x1_S600000_n_0_0_1).wf zeroVec oneVec oneEdges (dstOf (dstWords a1))

/-- The zero table of layer 0. -/
def zeros128 : FVec Ideal S100000x128 .f32 :=
  broadcastInDim S100000x128 ![] bcast_S_S100000x128 (constant (F := Ideal) S_ .f32 0x00000000#32)

theorem zeros128_zero (j : S100000x128.Idx) : zeros128 j = 0 := by
  unfold zeros128
  exact Cert.Sage.Splat.zero_apply _ _ j

/-- Layer 0's aggregated table: the neighbour sums of `X` times the column of reciprocal in-degrees along the lanes. -/
def agg0 (X : FVec Ideal S100000x128 .f32) (v1 v3 : EdgeWords) (v12 : FVec Ideal S100000x1 .f32) : FVec Ideal S100000x128 .f32 :=
  mulf (Host.scatterAdd scatter_S100000x128_S600000x1_S600000x128_1_0_0_1 zeros128 (dstOf v3) (Host.gather gather_S100000x128_S600000x1_S600000x128_1_0_n_n_0_1_1128 X (srcOf v1)))
    (broadcastInDim S100000x128 ![0, 1] bcast_S100000x1_S100000x128_0_1 v12)

/-- The zero table of layer 1. -/
def zeros64 : FVec Ideal S100000x64 .f32 :=
  broadcastInDim S100000x64 ![] bcast_S_S100000x64 (constant (F := Ideal) S_ .f32 0x00000000#32)

theorem zeros64_zero (j : S100000x64.Idx) : zeros64 j = 0 := by
  unfold zeros64
  exact Cert.Sage.Splat.zero_apply _ _ j

/-- Layer 1's aggregated table: the neighbour sums of `X` times the column of reciprocal in-degrees along the lanes. -/
def agg1 (X : FVec Ideal S100000x64 .f32) (v1 v3 : EdgeWords) (v12 : FVec Ideal S100000x1 .f32) : FVec Ideal S100000x64 .f32 :=
  mulf (Host.scatterAdd scatter_S100000x64_S600000x1_S600000x64_1_0_0_1 zeros64 (dstOf v3) (Host.gather gather_S100000x64_S600000x1_S600000x64_1_0_n_n_0_1_164 X (srcOf v1)))
    (broadcastInDim S100000x64 ![0, 1] bcast_S100000x1_S100000x64_0_1 v12)

/-- The zero table of layer 2. -/
def zeros32 : FVec Ideal S100000x32 .f32 :=
  broadcastInDim S100000x32 ![] bcast_S_S100000x32 (constant (F := Ideal) S_ .f32 0x00000000#32)

theorem zeros32_zero (j : S100000x32.Idx) : zeros32 j = 0 := by
  unfold zeros32
  exact Cert.Sage.Splat.zero_apply _ _ j

/-- Layer 2's aggregated table: the neighbour sums of `X` times the column of reciprocal in-degrees along the lanes. -/
def agg2 (X : FVec Ideal S100000x32 .f32) (v1 v3 : EdgeWords) (v12 : FVec Ideal S100000x1 .f32) : FVec Ideal S100000x32 .f32 :=
  mulf (Host.scatterAdd scatter_S100000x32_S600000x1_S600000x32_1_0_0_1 zeros32 (dstOf v3) (Host.gather gather_S100000x32_S600000x1_S600000x32_1_0_n_n_0_1_132 X (srcOf v1)))
    (broadcastInDim S100000x32 ![0, 1] bcast_S100000x1_S100000x32_0_1 v12)

/-- The zero table of layer 3. -/
def zeros16 : FVec Ideal S100000x16 .f32 :=
  broadcastInDim S100000x16 ![] bcast_S_S100000x16 (constant (F := Ideal) S_ .f32 0x00000000#32)

theorem zeros16_zero (j : S100000x16.Idx) : zeros16 j = 0 := by
  unfold zeros16
  exact Cert.Sage.Splat.zero_apply _ _ j

/-- Layer 3's aggregated table: the neighbour sums of `X` times the column of reciprocal in-degrees along the lanes. -/
def agg3 (X : FVec Ideal S100000x16 .f32) (v1 v3 : EdgeWords) (v12 : FVec Ideal S100000x1 .f32) : FVec Ideal S100000x16 .f32 :=
  mulf (Host.scatterAdd scatter_S100000x16_S600000x1_S600000x16_1_0_0_1 zeros16 (dstOf v3) (Host.gather gather_S100000x16_S600000x1_S600000x16_1_0_n_n_0_1_116 X (srcOf v1)))
    (broadcastInDim S100000x16 ![0, 1] bcast_S100000x1_S100000x16_0_1 v12)

/-! ## The network as a function of the launch arrays -/

/-- The network through layer 0, as a function of the launch arrays. -/
def net1 (a0 : FVec Ideal S100000x128 .f32) (a1 : EdgeArray) (a3 a4 : FVec Ideal S128x64 .f32) (a5 : FVec Ideal S64 .f32) :
    FVec Ideal S100000x64 .f32 :=
  hidden (N := 100000) (E := 600000) (K := 128) (C := 64) (gather_S100000x128_S600000x1_S600000x128_1_0_n_n_0_1_1128).wf (scatter_S100000x128_S600000x1_S600000x128_1_0_0_1).wf zeros128
    (dstOf (dstWords a1)) (srcOf (srcWords a1)) (deg a1) a3 a4 a5 a0

/-- The network through layer 1, as a function of the launch arrays. -/
def net2 (a0 : FVec Ideal S100000x128 .f32) (a1 : EdgeArray) (a3 a4 : FVec Ideal S128x64 .f32) (a5 : FVec Ideal S64 .f32) (a6 a7 : FVec Ideal S64x32 .f32) (a8 : FVec Ideal S32 .f32) :
    FVec Ideal S100000x32 .f32 :=
  hidden (N := 100000) (E := 600000) (K := 64) (C := 32) (gather_S100000x64_S600000x1_S600000x64_1_0_n_n_0_1_164).wf (scatter_S100000x64_S600000x1_S600000x64_1_0_0_1).wf zeros64
    (dstOf (dstWords a1)) (srcOf (srcWords a1)) (deg a1) a6 a7 a8 (net1 a0 a1 a3 a4 a5)

/-- The network through layer 2, as a function of the launch arrays. -/
def net3 (a0 : FVec Ideal S100000x128 .f32) (a1 : EdgeArray) (a3 a4 : FVec Ideal S128x64 .f32) (a5 : FVec Ideal S64 .f32) (a6 a7 : FVec Ideal S64x32 .f32) (a8 : FVec Ideal S32 .f32) (a9 a10 : FVec Ideal S32x16 .f32) (a11 : FVec Ideal S16 .f32) :
    FVec Ideal S100000x16 .f32 :=
  hidden (N := 100000) (E := 600000) (K := 32) (C := 16) (gather_S100000x32_S600000x1_S600000x32_1_0_n_n_0_1_132).wf (scatter_S100000x32_S600000x1_S600000x32_1_0_0_1).wf zeros32
    (dstOf (dstWords a1)) (srcOf (srcWords a1)) (deg a1) a9 a10 a11 (net2 a0 a1 a3 a4 a5 a6 a7 a8)

/-- The network through layer 3, as a function of the launch arrays. -/
def net4 (a0 : FVec Ideal S100000x128 .f32) (a1 : EdgeArray) (a3 a4 : FVec Ideal S128x64 .f32) (a5 : FVec Ideal S64 .f32) (a6 a7 : FVec Ideal S64x32 .f32) (a8 : FVec Ideal S32 .f32) (a9 a10 : FVec Ideal S32x16 .f32) (a11 : FVec Ideal S16 .f32) (a12 a13 : FVec Ideal S16x9 .f32) (a14 : FVec Ideal S9 .f32) :
    FVec Ideal S100000x9 .f32 :=
  final (N := 100000) (E := 600000) (K := 16) (C := 9) (gather_S100000x16_S600000x1_S600000x16_1_0_n_n_0_1_116).wf (scatter_S100000x16_S600000x1_S600000x16_1_0_0_1).wf zeros16
    (dstOf (dstWords a1)) (srcOf (srcWords a1)) (deg a1) a12 a13 a14 (net3 a0 a1 a3 a4 a5 a6 a7 a8 a9 a10 a11)

/-! ## Each region's result array from the arrays it is entered with -/

/-- Region 0's result array from the five arrays it is entered with, whatever they are called. -/
theorem layer0_of (V : (c : Dev nD) → (b : Ref sig .tc) → Buf (Elt Ideal) ((c : Thread nD τ).loc b)) (c : Dev nD)
    (A X : FVec Ideal S100000x128 .f32) (Wl Wr : FVec Ideal S128x64 .f32) (B : FVec Ideal S1x64 .f32)
    (hA : V c main_v24 = A) (hX : V c main_arg0 = X) (hWl : V c main_arg3 = Wl) (hWr : V c main_arg4 = Wr) (hB : V c main_v25 = B) :
    (dat0 V c).arrAt 5 cfg0.N
      = relu (lin (N := 100000) (K := 128) (C := 64) A X Wl Wr (fun c' => B (ix2 (0 : Fin 1) c'))) := by
  rw [Layer0.arr_eq]
  unfold Layer0.out
  rw [hA, hX, hWl, hWr, hB]

/-- Region 1's result array from the five arrays it is entered with, whatever they are called. -/
theorem layer1_of (V : (c : Dev nD) → (b : Ref sig .tc) → Buf (Elt Ideal) ((c : Thread nD τ).loc b)) (c : Dev nD)
    (A X : FVec Ideal S100000x64 .f32) (Wl Wr : FVec Ideal S64x32 .f32) (B : FVec Ideal S1x32 .f32)
    (hA : V c main_v38 = A) (hX : V c main_v26 = X) (hWl : V c main_arg6 = Wl) (hWr : V c main_arg7 = Wr) (hB : V c main_v39 = B) :
    (dat1 V c).arrAt 5 cfg1.N
      = relu (lin (N := 100000) (K := 64) (C := 32) A X Wl Wr (fun c' => B (ix2 (0 : Fin 1) c'))) := by
  rw [Layer1.arr_eq]
  unfold Layer1.out
  rw [hA, hX, hWl, hWr, hB]

/-- Region 2's result array from the five arrays it is entered with, whatever they are called. -/
theorem layer2_of (V : (c : Dev nD) → (b : Ref sig .tc) → Buf (Elt Ideal) ((c : Thread nD τ).loc b)) (c : Dev nD)
    (A X : FVec Ideal S100000x32 .f32) (Wl Wr : FVec Ideal S32x16 .f32) (B : FVec Ideal S1x16 .f32)
    (hA : V c main_v52 = A) (hX : V c main_v40 = X) (hWl : V c main_arg9 = Wl) (hWr : V c main_arg10 = Wr) (hB : V c main_v53 = B) :
    (dat2 V c).arrAt 5 cfg2.N
      = relu (lin (N := 100000) (K := 32) (C := 16) A X Wl Wr (fun c' => B (ix2 (0 : Fin 1) c'))) := by
  rw [Layer2.arr_eq]
  unfold Layer2.out
  rw [hA, hX, hWl, hWr, hB]

/-- Region 3's result array from the five arrays it is entered with, whatever they are called. -/
theorem layer3_of (V : (c : Dev nD) → (b : Ref sig .tc) → Buf (Elt Ideal) ((c : Thread nD τ).loc b)) (c : Dev nD)
    (A X : FVec Ideal S100000x16 .f32) (Wl Wr : FVec Ideal S16x9 .f32) (B : FVec Ideal S1x9 .f32)
    (hA : V c main_v66 = A) (hX : V c main_v54 = X) (hWl : V c main_arg12 = Wl) (hWr : V c main_arg13 = Wr) (hB : V c main_v67 = B) :
    (dat3 V c).arrAt 5 cfg3.N
      = (lin (N := 100000) (K := 16) (C := 9) A X Wl Wr (fun c' => B (ix2 (0 : Fin 1) c'))) := by
  rw [Layer3.arr_eq]
  unfold Layer3.out
  rw [hA, hX, hWl, hWr, hB]

/-! ## The run, boundary by boundary -/

variable (m : (ℓ : Loc nD τ sig) → Buf (Elt Ideal) ℓ) (ρ : Dev nD → PrngReg) (c : Dev nD)

/-- The first stretch leaves the source words, the destination words and the column of reciprocal in-degrees. -/
theorem w1_v1 : W1 m ρ c (Proc.devRef .tc main_v1) = srcWords (m ((c : Thread nD τ).loc main_arg1)) := by
  show StableHlo.after hostOps0 (W0 m ρ c) (Proc.devRef .tc main_v1) = _
  after_results_simp <;> rfl

theorem w1_v3 : W1 m ρ c (Proc.devRef .tc main_v3) = dstWords (m ((c : Thread nD τ).loc main_arg1)) := by
  show StableHlo.after hostOps0 (W0 m ρ c) (Proc.devRef .tc main_v3) = _
  after_results_simp <;> rfl

theorem w1_v12 : W1 m ρ c (Proc.devRef .tc main_v12) = invCol (dstWords (m ((c : Thread nD τ).loc main_arg1))) := by
  show StableHlo.after hostOps0 (W0 m ρ c) (Proc.devRef .tc main_v12) = _
  after_results_simp <;> rfl

/-- Stretch 0 leaves layer 0's aggregated table and bias row, from the previous boundary's buffers. -/
theorem w1_agg : W1 m ρ c (Proc.devRef .tc main_v24)
    = agg0 (m ((c : Thread nD τ).loc main_arg0)) (srcWords (m ((c : Thread nD τ).loc main_arg1))) (dstWords (m ((c : Thread nD τ).loc main_arg1))) (invCol (dstWords (m ((c : Thread nD τ).loc main_arg1)))) := by
  show StableHlo.after hostOps0 (W0 m ρ c) (Proc.devRef .tc main_v24) = _
  after_results_simp <;> rfl

theorem w1_bias : W1 m ρ c (Proc.devRef .tc main_v25)
    = shapeCast S1x64 (W0 m ρ c (Proc.devRef .tc main_arg5)) shapeCasts_S64_S1x64 := by
  show StableHlo.after hostOps0 (W0 m ρ c) (Proc.devRef .tc main_v25) = _
  after_results_simp <;> rfl

/-- Stretch 1 leaves layer 1's aggregated table and bias row, from the previous boundary's buffers. -/
theorem w3_agg : W3 m ρ c (Proc.devRef .tc main_v38)
    = agg1 (W2 m ρ c (Proc.devRef .tc main_v26)) (W2 m ρ c (Proc.devRef .tc main_v1)) (W2 m ρ c (Proc.devRef .tc main_v3))
        (W2 m ρ c (Proc.devRef .tc main_v12)) := by
  show StableHlo.after hostOps1 (W2 m ρ c) (Proc.devRef .tc main_v38) = _
  after_results_simp <;> rfl

theorem w3_bias : W3 m ρ c (Proc.devRef .tc main_v39)
    = shapeCast S1x32 (W2 m ρ c (Proc.devRef .tc main_arg8)) shapeCasts_S32_S1x32 := by
  show StableHlo.after hostOps1 (W2 m ρ c) (Proc.devRef .tc main_v39) = _
  after_results_simp <;> rfl

/-- Stretch 2 leaves layer 2's aggregated table and bias row, from the previous boundary's buffers. -/
theorem w5_agg : W5 m ρ c (Proc.devRef .tc main_v52)
    = agg2 (W4 m ρ c (Proc.devRef .tc main_v40)) (W4 m ρ c (Proc.devRef .tc main_v1)) (W4 m ρ c (Proc.devRef .tc main_v3))
        (W4 m ρ c (Proc.devRef .tc main_v12)) := by
  show StableHlo.after hostOps2 (W4 m ρ c) (Proc.devRef .tc main_v52) = _
  after_results_simp <;> rfl

theorem w5_bias : W5 m ρ c (Proc.devRef .tc main_v53)
    = shapeCast S1x16 (W4 m ρ c (Proc.devRef .tc main_arg11)) shapeCasts_S16_S1x16 := by
  show StableHlo.after hostOps2 (W4 m ρ c) (Proc.devRef .tc main_v53) = _
  after_results_simp <;> rfl

/-- Stretch 3 leaves layer 3's aggregated table and bias row, from the previous boundary's buffers. -/
theorem w7_agg : W7 m ρ c (Proc.devRef .tc main_v66)
    = agg3 (W6 m ρ c (Proc.devRef .tc main_v54)) (W6 m ρ c (Proc.devRef .tc main_v1)) (W6 m ρ c (Proc.devRef .tc main_v3))
        (W6 m ρ c (Proc.devRef .tc main_v12)) := by
  show StableHlo.after hostOps3 (W6 m ρ c) (Proc.devRef .tc main_v66) = _
  after_results_simp <;> rfl

theorem w7_bias : W7 m ρ c (Proc.devRef .tc main_v67)
    = shapeCast S1x9 (W6 m ρ c (Proc.devRef .tc main_arg14)) shapeCasts_S9_S1x9 := by
  show StableHlo.after hostOps3 (W6 m ρ c) (Proc.devRef .tc main_v67) = _
  after_results_simp <;> rfl

/-- AFTER REGION 0 its result array holds the network through layer 0. -/
theorem w2_out : W2 m ρ c (Proc.devRef .tc main_v26) = net1 (m ((c : Thread nD τ).loc main_arg0)) (m ((c : Thread nD τ).loc main_arg1)) (m ((c : Thread nD τ).loc main_arg3)) (m ((c : Thread nD τ).loc main_arg4)) (m ((c : Thread nD τ).loc main_arg5)) := by
  have hA : V1 m ρ c main_v24 = agg0 (m ((c : Thread nD τ).loc main_arg0)) (srcWords (m ((c : Thread nD τ).loc main_arg1))) (dstWords (m ((c : Thread nD τ).loc main_arg1))) (invCol (dstWords (m ((c : Thread nD τ).loc main_arg1)))) :=
    w1_agg m ρ c
  have hB : V1 m ρ c main_v25 = shapeCast S1x64 (m ((c : Thread nD τ).loc main_arg5)) shapeCasts_S64_S1x64 := by
    refine (w1_bias m ρ c).trans ?_
    rfl
  refine (W2_arr m ρ c 5).trans ?_
  refine (layer0_of (V1 m ρ) c _ _ _ _ _ hA (at1_main_arg0 m ρ c) (at1_main_arg3 m ρ c) (at1_main_arg4 m ρ c) hB).trans ?_
  exact hidden_of_product (N := 100000) (E := 600000) (K := 128) (C := 64) (gather_S100000x128_S600000x1_S600000x128_1_0_n_n_0_1_1128).wf (scatter_S100000x128_S600000x1_S600000x128_1_0_0_1).wf
    (scatter_S100000_S600000x1_S600000_n_0_0_1).wf bcast_S100000_S100000x1_0 bcast_S100000x1_S100000x128_0_1 shapeCasts_S64_S1x64
    zeros128 (dstOf (dstWords (m ((c : Thread nD τ).loc main_arg1)))) (srcOf (srcWords (m ((c : Thread nD τ).loc main_arg1)))) zeroVec oneVec oneEdges zeroVec_zero oneVec_one oneEdges_one
    (m ((c : Thread nD τ).loc main_arg3)) (m ((c : Thread nD τ).loc main_arg4)) (m ((c : Thread nD τ).loc main_arg5)) (m ((c : Thread nD τ).loc main_arg0))

/-- AFTER REGION 1 its result array holds the network through layer 1. -/
theorem w4_out : W4 m ρ c (Proc.devRef .tc main_v40) = net2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hA : V3 m ρ c main_v38 = agg1 (net1 (m ((c : Thread nD τ).loc main_arg0)) (m ((c : Thread nD τ).loc main_arg1)) (m ((c : Thread nD τ).loc main_arg3)) (m ((c : Thread nD τ).loc main_arg4)) (m ((c : Thread nD τ).loc main_arg5))) (srcWords (m ((c : Thread nD τ).loc main_arg1))) (dstWords (m ((c : Thread nD τ).loc main_arg1))) (invCol (dstWords (m ((c : Thread nD τ).loc main_arg1)))) := by
    refine (w3_agg m ρ c).trans ?_
    rw [w2_out, at2_main_v1, at2_main_v3, at2_main_v12, w1_v1, w1_v3, w1_v12]
  have hB : V3 m ρ c main_v39 = shapeCast S1x32 (m ((c : Thread nD τ).loc main_arg8)) shapeCasts_S32_S1x32 := by
    refine (w3_bias m ρ c).trans ?_
    rw [at2_main_arg8]
  refine (W4_arr m ρ c 5).trans ?_
  refine (layer1_of (V3 m ρ) c _ _ _ _ _ hA ((keep3_main_v26 m ρ c).trans (w2_out m ρ c)) (at3_main_arg6 m ρ c) (at3_main_arg7 m ρ c) hB).trans ?_
  exact hidden_of_product (N := 100000) (E := 600000) (K := 64) (C := 32) (gather_S100000x64_S600000x1_S600000x64_1_0_n_n_0_1_164).wf (scatter_S100000x64_S600000x1_S600000x64_1_0_0_1).wf
    (scatter_S100000_S600000x1_S600000_n_0_0_1).wf bcast_S100000_S100000x1_0 bcast_S100000x1_S100000x64_0_1 shapeCasts_S32_S1x32
    zeros64 (dstOf (dstWords (m ((c : Thread nD τ).loc main_arg1)))) (srcOf (srcWords (m ((c : Thread nD τ).loc main_arg1)))) zeroVec oneVec oneEdges zeroVec_zero oneVec_one oneEdges_one
    (m ((c : Thread nD τ).loc main_arg6)) (m ((c : Thread nD τ).loc main_arg7)) (m ((c : Thread nD τ).loc main_arg8)) (net1 (m ((c : Thread nD τ).loc main_arg0)) (m ((c : Thread nD τ).loc main_arg1)) (m ((c : Thread nD τ).loc main_arg3)) (m ((c : Thread nD τ).loc main_arg4)) (m ((c : Thread nD τ).loc main_arg5)))

/-- AFTER REGION 2 its result array holds the network through layer 2. -/
theorem w6_out : W6 m ρ c (Proc.devRef .tc main_v54) = net3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have hA : V5 m ρ c main_v52 = agg2 (net2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (srcWords (m ((c : Thread nD τ).loc main_arg1))) (dstWords (m ((c : Thread nD τ).loc main_arg1))) (invCol (dstWords (m ((c : Thread nD τ).loc main_arg1)))) := by
    refine (w5_agg m ρ c).trans ?_
    rw [w4_out, at4_main_v1, at4_main_v3, at4_main_v12, w1_v1, w1_v3, w1_v12]
  have hB : V5 m ρ c main_v53 = shapeCast S1x16 (m ((c : Thread nD τ).loc main_arg11)) shapeCasts_S16_S1x16 := by
    refine (w5_bias m ρ c).trans ?_
    rw [at4_main_arg11]
  refine (W6_arr m ρ c 5).trans ?_
  refine (layer2_of (V5 m ρ) c _ _ _ _ _ hA ((keep5_main_v40 m ρ c).trans (w4_out m ρ c)) (at5_main_arg9 m ρ c) (at5_main_arg10 m ρ c) hB).trans ?_
  exact hidden_of_product (N := 100000) (E := 600000) (K := 32) (C := 16) (gather_S100000x32_S600000x1_S600000x32_1_0_n_n_0_1_132).wf (scatter_S100000x32_S600000x1_S600000x32_1_0_0_1).wf
    (scatter_S100000_S600000x1_S600000_n_0_0_1).wf bcast_S100000_S100000x1_0 bcast_S100000x1_S100000x32_0_1 shapeCasts_S16_S1x16
    zeros32 (dstOf (dstWords (m ((c : Thread nD τ).loc main_arg1)))) (srcOf (srcWords (m ((c : Thread nD τ).loc main_arg1)))) zeroVec oneVec oneEdges zeroVec_zero oneVec_one oneEdges_one
    (m ((c : Thread nD τ).loc main_arg9)) (m ((c : Thread nD τ).loc main_arg10)) (m ((c : Thread nD τ).loc main_arg11)) (net2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))

/-- AFTER REGION 3 its result array holds the network through layer 3. -/
theorem w8_out : W8 m ρ c (Proc.devRef .tc main_v68) = net4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have hA : V7 m ρ c main_v66 = agg3 (net3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (srcWords (m ((c : Thread nD τ).loc main_arg1))) (dstWords (m ((c : Thread nD τ).loc main_arg1))) (invCol (dstWords (m ((c : Thread nD τ).loc main_arg1)))) := by
    refine (w7_agg m ρ c).trans ?_
    rw [w6_out, at6_main_v1, at6_main_v3, at6_main_v12, w1_v1, w1_v3, w1_v12]
  have hB : V7 m ρ c main_v67 = shapeCast S1x9 (m ((c : Thread nD τ).loc main_arg14)) shapeCasts_S9_S1x9 := by
    refine (w7_bias m ρ c).trans ?_
    rw [at6_main_arg14]
  refine (W8_arr m ρ c 5).trans ?_
  refine (layer3_of (V7 m ρ) c _ _ _ _ _ hA ((keep7_main_v54 m ρ c).trans (w6_out m ρ c)) (at7_main_arg12 m ρ c) (at7_main_arg13 m ρ c) hB).trans ?_
  exact final_of_product (N := 100000) (E := 600000) (K := 16) (C := 9) (gather_S100000x16_S600000x1_S600000x16_1_0_n_n_0_1_116).wf (scatter_S100000x16_S600000x1_S600000x16_1_0_0_1).wf
    (scatter_S100000_S600000x1_S600000_n_0_0_1).wf bcast_S100000_S100000x1_0 bcast_S100000x1_S100000x16_0_1 shapeCasts_S9_S1x9
    zeros16 (dstOf (dstWords (m ((c : Thread nD τ).loc main_arg1)))) (srcOf (srcWords (m ((c : Thread nD τ).loc main_arg1)))) zeroVec oneVec oneEdges zeroVec_zero oneVec_one oneEdges_one
    (m ((c : Thread nD τ).loc main_arg12)) (m ((c : Thread nD τ).loc main_arg13)) (m ((c : Thread nD τ).loc main_arg14)) (net3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))

end Cert.KernelIdeal.Net

end
-- ==== Proof.RefLayers.lean ====
/-
  The idealized reference program read layer by layer. Its @main is four mean-aggregation layers in a row; each gathers
  the rows of its node table at the edges' source words, adds them onto a zero table at the destination words, divides
  every row by the node's clamped in-degree (ones scattered onto a zero COLUMN `[100000, 1]`, then the maximum with one),
  and applies two whole matrix products, the bias and — except in the last layer — the maximum with zero. Each layer's
  result stage is the layer function (`Cert.Sage.Layer.hidden` / `final`) of the previous layer's result stage, with
  the same two columns of edge words (`dst`, `src`) and any function `d` that the column of clamped in-degrees agrees
  with; and that column agrees with the in-degree counted into a vector (`deg…_eq`).
-/
import proofs.«136466_j6270652252188_1_alg».proof.Proof.Gen.ReferenceIdeal.Read
import proofs.«136466_j6270652252188_1_alg».proof.Proof.LibMeanLayer
import proofs.«136466_j6270652252188_1_alg».proof.Proof.LibSplat

noncomputable section

namespace Cert.ReferenceIdeal.Sage

open Cert.ReferenceIdeal Cert.ReferenceIdeal.Gen Cert.ReferenceIdeal.Read Cert.Sage.Layer
open Idealize.ShloMosaic Idealize.ShloMosaic.ValueIdx

variable (x0 : (⟨S100000x128, .f32⟩ : BufTy).Contents (Elt Ideal)) (x1 : (⟨S2x600000, .i32⟩ : BufTy).Contents (Elt Ideal))
  (x3 x4 : (⟨S128x64, .f32⟩ : BufTy).Contents (Elt Ideal)) (x5 : (⟨S64, .f32⟩ : BufTy).Contents (Elt Ideal))
  (x6 x7 : (⟨S64x32, .f32⟩ : BufTy).Contents (Elt Ideal)) (x8 : (⟨S32, .f32⟩ : BufTy).Contents (Elt Ideal))
  (x9 x10 : (⟨S32x16, .f32⟩ : BufTy).Contents (Elt Ideal)) (x11 : (⟨S16, .f32⟩ : BufTy).Contents (Elt Ideal))
  (x12 x13 : (⟨S16x9, .f32⟩ : BufTy).Contents (Elt Ideal)) (x14 : (⟨S9, .f32⟩ : BufTy).Contents (Elt Ideal))

/-- The edges' destination words as a column `[600000, 1]`: row 1 of the edge array. -/
def dst : (⟨S600000x1, .i32⟩ : BufTy).Contents (Elt Ideal) := val_main_v12 (F := Ideal) x1

/-- The edges' source words as a column: row 0 of the edge array, a negative word moved up by the table's height. -/
def src : (⟨S600000x1, .i32⟩ : BufTy).Contents (Elt Ideal) := val_main_v9 (F := Ideal) x1

/-! ## Layer 0: `[100000, 128]` to `[100000, 64]` -/

/-- The neighbour sums of layer 0: its gather and scatter, on the table the layer is given. -/
theorem sums0_eq : val_main_v13 (F := Ideal) x0 x1
    = sums (N := 100000) (E := 600000) (K := 128) (gather_S100000x128_S600000x1_S600000x128_1_0_n_n_0_1_1128).wf (scatter_S100000x128_S600000x1_S600000x128_1_0_0_1).wf (val_main_v11 (F := Ideal)) (dst x1) (src x1) x0 := by
  unfold val_main_v13 val_main_v10
  rfl

/-- Its zero table is zero. -/
theorem zeros0 (j : S100000x128.Idx) : val_main_v11 (F := Ideal) j = 0 := by
  unfold val_main_v11 val_main_cst
  exact Cert.Sage.Splat.zero_apply _ _ j

/-- Its column of clamped in-degrees holds, at `(i, 0)`, the clamped in-degree counted into a vector. -/
theorem deg0_eq (wfc : ScatterDims.WF ⟨1, ![100000]⟩ ⟨2, ![600000, 1]⟩ ⟨1, ![600000]⟩ [] [0] [0] 1)
    (z o : FVec Ideal ⟨1, ![100000]⟩ .f32) (u : FVec Ideal ⟨1, ![600000]⟩ .f32)
    (hz : ∀ j, z j = 0) (ho : ∀ j, o j = 1) (hu : ∀ j, u j = 1) (i : Fin 100000) :
    val_main_v19 (F := Ideal) x1 (ix2 i (0 : Fin 1)) = clampDeg (N := 100000) (E := 600000) wfc z o u (dst x1) i := by
  unfold val_main_v19 val_main_v17
  exact deg_rows_eq_cells (N := 100000) (E := 600000) (scatter_S100000x1_S600000x1_S600000x1_1_0_0_1).wf wfc
    (val_main_v15 (F := Ideal)) (val_main_v18 (F := Ideal)) (val_main_v14 (F := Ideal)) z o u
    (fun j => by unfold val_main_v15 val_main_cst_2; exact Cert.Sage.Splat.zero_apply _ _ j)
    (fun j => by unfold val_main_v18 val_main_cst_3; exact Cert.Sage.Splat.one_apply _ _ j)
    (fun j => by unfold val_main_v14 val_main_cst_1; exact Cert.Sage.Splat.one_apply _ _ j)
    hz ho hu (val_main_v16 (F := Ideal) x1) i

/-- LAYER 0 of the reference is the layer function of the table it is given. -/
theorem layer0_eq (d : Fin 100000 → EReal) (hd : ∀ i, val_main_v19 (F := Ideal) x1 (ix2 i (0 : Fin 1)) = d i) :
    val_main_v28 (F := Ideal) x0 x1 x3 x4 x5
      = hidden (N := 100000) (E := 600000) (K := 128) (C := 64) (gather_S100000x128_S600000x1_S600000x128_1_0_n_n_0_1_1128).wf (scatter_S100000x128_S600000x1_S600000x128_1_0_0_1).wf (val_main_v11 (F := Ideal)) (dst x1) (src x1) d x3 x4 x5 x0 := by
  have h := quotientLayer_relu_eq (N := 100000) (K := 128) (C := 64) bcast_S100000x1_S100000x128_0_1 bcast_S64_S1x64_1 bcast_S1x64_S100000x64_0_1 bcast_S_S100000x64
    (val_main_v13 (F := Ideal) x0 x1) x0 (val_main_v19 (F := Ideal) x1) x3 x4 x5
  rw [show (fun i => val_main_v19 (F := Ideal) x1 (ix2 i (0 : Fin 1))) = d from funext hd, sums0_eq] at h
  unfold val_main_v28 val_main_v27 val_main_v24 val_main_v26 val_main_v25 val_main_v22 val_main_v23 val_main_v21 val_main_v20 val_main_call0_v0 val_main_call0_cst
  exact h

/-! ## Layer 1: `[100000, 64]` to `[100000, 32]` -/

/-- The neighbour sums of layer 1: its gather and scatter, on the table the layer is given. -/
theorem sums1_eq : val_main_v38 (F := Ideal) x0 x1 x3 x4 x5
    = sums (N := 100000) (E := 600000) (K := 64) (gather_S100000x64_S600000x1_S600000x64_1_0_n_n_0_1_164).wf (scatter_S100000x64_S600000x1_S600000x64_1_0_0_1).wf (val_main_v36 (F := Ideal)) (dst x1) (src x1) (val_main_v28 (F := Ideal) x0 x1 x3 x4 x5) := by
  unfold val_main_v38 val_main_v35
  rfl

/-- Its zero table is zero. -/
theorem zeros1 (j : S100000x64.Idx) : val_main_v36 (F := Ideal) j = 0 := by
  unfold val_main_v36 val_main_cst_6
  exact Cert.Sage.Splat.zero_apply _ _ j

/-- Its column of clamped in-degrees holds, at `(i, 0)`, the clamped in-degree counted into a vector. -/
theorem deg1_eq (wfc : ScatterDims.WF ⟨1, ![100000]⟩ ⟨2, ![600000, 1]⟩ ⟨1, ![600000]⟩ [] [0] [0] 1)
    (z o : FVec Ideal ⟨1, ![100000]⟩ .f32) (u : FVec Ideal ⟨1, ![600000]⟩ .f32)
    (hz : ∀ j, z j = 0) (ho : ∀ j, o j = 1) (hu : ∀ j, u j = 1) (i : Fin 100000) :
    val_main_v44 (F := Ideal) x1 (ix2 i (0 : Fin 1)) = clampDeg (N := 100000) (E := 600000) wfc z o u (dst x1) i := by
  unfold val_main_v44 val_main_v42
  exact deg_rows_eq_cells (N := 100000) (E := 600000) (scatter_S100000x1_S600000x1_S600000x1_1_0_0_1).wf wfc
    (val_main_v40 (F := Ideal)) (val_main_v43 (F := Ideal)) (val_main_v39 (F := Ideal)) z o u
    (fun j => by unfold val_main_v40 val_main_cst_8; exact Cert.Sage.Splat.zero_apply _ _ j)
    (fun j => by unfold val_main_v43 val_main_cst_9; exact Cert.Sage.Splat.one_apply _ _ j)
    (fun j => by unfold val_main_v39 val_main_cst_7; exact Cert.Sage.Splat.one_apply _ _ j)
    hz ho hu (val_main_v41 (F := Ideal) x1) i

/-- LAYER 1 of the reference is the layer function of the table it is given. -/
theorem layer1_eq (d : Fin 100000 → EReal) (hd : ∀ i, val_main_v44 (F := Ideal) x1 (ix2 i (0 : Fin 1)) = d i) :
    val_main_v53 (F := Ideal) x0 x1 x3 x4 x5 x6 x7 x8
      = hidden (N := 100000) (E := 600000) (K := 64) (C := 32) (gather_S100000x64_S600000x1_S600000x64_1_0_n_n_0_1_164).wf (scatter_S100000x64_S600000x1_S600000x64_1_0_0_1).wf (val_main_v36 (F := Ideal)) (dst x1) (src x1) d x6 x7 x8 (val_main_v28 (F := Ideal) x0 x1 x3 x4 x5) := by
  have h := quotientLayer_relu_eq (N := 100000) (K := 64) (C := 32) bcast_S100000x1_S100000x64_0_1 bcast_S32_S1x32_1 bcast_S1x32_S100000x32_0_1 bcast_S_S100000x32
    (val_main_v38 (F := Ideal) x0 x1 x3 x4 x5) (val_main_v28 (F := Ideal) x0 x1 x3 x4 x5) (val_main_v44 (F := Ideal) x1) x6 x7 x8
  rw [show (fun i => val_main_v44 (F := Ideal) x1 (ix2 i (0 : Fin 1))) = d from funext hd, sums1_eq] at h
  unfold val_main_v53 val_main_v52 val_main_v49 val_main_v51 val_main_v50 val_main_v47 val_main_v48 val_main_v46 val_main_v45 val_main_call1_v0 val_main_call1_cst
  exact h

/-! ## Layer 2: `[100000, 32]` to `[100000, 16]` -/

/-- The neighbour sums of layer 2: its gather and scatter, on the table the layer is given. -/
theorem sums2_eq : val_main_v63 (F := Ideal) x0 x1 x3 x4 x5 x6 x7 x8
    = sums (N := 100000) (E := 600000) (K := 32) (gather_S100000x32_S600000x1_S600000x32_1_0_n_n_0_1_132).wf (scatter_S100000x32_S600000x1_S600000x32_1_0_0_1).wf (val_main_v61 (F := Ideal)) (dst x1) (src x1) (val_main_v53 (F := Ideal) x0 x1 x3 x4 x5 x6 x7 x8) := by
  unfold val_main_v63 val_main_v60
  rfl

/-- Its zero table is zero. -/
theorem zeros2 (j : S100000x32.Idx) : val_main_v61 (F := Ideal) j = 0 := by
  unfold val_main_v61 val_main_cst_12
  exact Cert.Sage.Splat.zero_apply _ _ j

/-- Its column of clamped in-degrees holds, at `(i, 0)`, the clamped in-degree counted into a vector. -/
theorem deg2_eq (wfc : ScatterDims.WF ⟨1, ![100000]⟩ ⟨2, ![600000, 1]⟩ ⟨1, ![600000]⟩ [] [0] [0] 1)
    (z o : FVec Ideal ⟨1, ![100000]⟩ .f32) (u : FVec Ideal ⟨1, ![600000]⟩ .f32)
    (hz : ∀ j, z j = 0) (ho : ∀ j, o j = 1) (hu : ∀ j, u j = 1) (i : Fin 100000) :
    val_main_v69 (F := Ideal) x1 (ix2 i (0 : Fin 1)) = clampDeg (N := 100000) (E := 600000) wfc z o u (dst x1) i := by
  unfold val_main_v69 val_main_v67
  exact deg_rows_eq_cells (N := 100000) (E := 600000) (scatter_S100000x1_S600000x1_S600000x1_1_0_0_1).wf wfc
    (val_main_v65 (F := Ideal)) (val_main_v68 (F := Ideal)) (val_main_v64 (F := Ideal)) z o u
    (fun j => by unfold val_main_v65 val_main_cst_14; exact Cert.Sage.Splat.zero_apply _ _ j)
    (fun j => by unfold val_main_v68 val_main_cst_15; exact Cert.Sage.Splat.one_apply _ _ j)
    (fun j => by unfold val_main_v64 val_main_cst_13; exact Cert.Sage.Splat.one_apply _ _ j)
    hz ho hu (val_main_v66 (F := Ideal) x1) i

/-- LAYER 2 of the reference is the layer function of the table it is given. -/
theorem layer2_eq (d : Fin 100000 → EReal) (hd : ∀ i, val_main_v69 (F := Ideal) x1 (ix2 i (0 : Fin 1)) = d i) :
    val_main_v78 (F := Ideal) x0 x1 x3 x4 x5 x6 x7 x8 x9 x10 x11
      = hidden (N := 100000) (E := 600000) (K := 32) (C := 16) (gather_S100000x32_S600000x1_S600000x32_1_0_n_n_0_1_132).wf (scatter_S100000x32_S600000x1_S600000x32_1_0_0_1).wf (val_main_v61 (F := Ideal)) (dst x1) (src x1) d x9 x10 x11 (val_main_v53 (F := Ideal) x0 x1 x3 x4 x5 x6 x7 x8) := by
  have h := quotientLayer_relu_eq (N := 100000) (K := 32) (C := 16) bcast_S100000x1_S100000x32_0_1 bcast_S16_S1x16_1 bcast_S1x16_S100000x16_0_1 bcast_S_S100000x16
    (val_main_v63 (F := Ideal) x0 x1 x3 x4 x5 x6 x7 x8) (val_main_v53 (F := Ideal) x0 x1 x3 x4 x5 x6 x7 x8) (val_main_v69 (F := Ideal) x1) x9 x10 x11
  rw [show (fun i => val_main_v69 (F := Ideal) x1 (ix2 i (0 : Fin 1))) = d from funext hd, sums2_eq] at h
  unfold val_main_v78 val_main_v77 val_main_v74 val_main_v76 val_main_v75 val_main_v72 val_main_v73 val_main_v71 val_main_v70 val_main_call2_v0 val_main_call2_cst
  exact h

/-! ## Layer 3: `[100000, 16]` to `[100000, 9]` -/

/-- The neighbour sums of layer 3: its gather and scatter, on the table the layer is given. -/
theorem sums3_eq : val_main_v88 (F := Ideal) x0 x1 x3 x4 x5 x6 x7 x8 x9 x10 x11
    = sums (N := 100000) (E := 600000) (K := 16) (gather_S100000x16_S600000x1_S600000x16_1_0_n_n_0_1_116).wf (scatter_S100000x16_S600000x1_S600000x16_1_0_0_1).wf (val_main_v86 (F := Ideal)) (dst x1) (src x1) (val_main_v78 (F := Ideal) x0 x1 x3 x4 x5 x6 x7 x8 x9 x10 x11) := by
  unfold val_main_v88 val_main_v85
  rfl

/-- Its zero table is zero. -/
theorem zeros3 (j : S100000x16.Idx) : val_main_v86 (F := Ideal) j = 0 := by
  unfold val_main_v86 val_main_cst_18
  exact Cert.Sage.Splat.zero_apply _ _ j

/-- Its column of clamped in-degrees holds, at `(i, 0)`, the clamped in-degree counted into a vector. -/
theorem deg3_eq (wfc : ScatterDims.WF ⟨1, ![100000]⟩ ⟨2, ![600000, 1]⟩ ⟨1, ![600000]⟩ [] [0] [0] 1)
    (z o : FVec Ideal ⟨1, ![100000]⟩ .f32) (u : FVec Ideal ⟨1, ![600000]⟩ .f32)
    (hz : ∀ j, z j = 0) (ho : ∀ j, o j = 1) (hu : ∀ j, u j = 1) (i : Fin 100000) :
    val_main_v94 (F := Ideal) x1 (ix2 i (0 : Fin 1)) = clampDeg (N := 100000) (E := 600000) wfc z o u (dst x1) i := by
  unfold val_main_v94 val_main_v92
  exact deg_rows_eq_cells (N := 100000) (E := 600000) (scatter_S100000x1_S600000x1_S600000x1_1_0_0_1).wf wfc
    (val_main_v90 (F := Ideal)) (val_main_v93 (F := Ideal)) (val_main_v89 (F := Ideal)) z o u
    (fun j => by unfold val_main_v90 val_main_cst_20; exact Cert.Sage.Splat.zero_apply _ _ j)
    (fun j => by unfold val_main_v93 val_main_cst_21; exact Cert.Sage.Splat.one_apply _ _ j)
    (fun j => by unfold val_main_v89 val_main_cst_19; exact Cert.Sage.Splat.one_apply _ _ j)
    hz ho hu (val_main_v91 (F := Ideal) x1) i

/-- LAYER 3 of the reference is the layer function of the table it is given. -/
theorem layer3_eq (d : Fin 100000 → EReal) (hd : ∀ i, val_main_v94 (F := Ideal) x1 (ix2 i (0 : Fin 1)) = d i) :
    val_main_v102 (F := Ideal) x0 x1 x3 x4 x5 x6 x7 x8 x9 x10 x11 x12 x13 x14
      = final (N := 100000) (E := 600000) (K := 16) (C := 9) (gather_S100000x16_S600000x1_S600000x16_1_0_n_n_0_1_116).wf (scatter_S100000x16_S600000x1_S600000x16_1_0_0_1).wf (val_main_v86 (F := Ideal)) (dst x1) (src x1) d x12 x13 x14 (val_main_v78 (F := Ideal) x0 x1 x3 x4 x5 x6 x7 x8 x9 x10 x11) := by
  have h := quotientLayer_eq (N := 100000) (K := 16) (C := 9) bcast_S100000x1_S100000x16_0_1 bcast_S9_S1x9_1 bcast_S1x9_S100000x9_0_1
    (val_main_v88 (F := Ideal) x0 x1 x3 x4 x5 x6 x7 x8 x9 x10 x11) (val_main_v78 (F := Ideal) x0 x1 x3 x4 x5 x6 x7 x8 x9 x10 x11) (val_main_v94 (F := Ideal) x1) x12 x13 x14
  rw [show (fun i => val_main_v94 (F := Ideal) x1 (ix2 i (0 : Fin 1))) = d from funext hd, sums3_eq] at h
  unfold val_main_v102 val_main_v99 val_main_v101 val_main_v100 val_main_v97 val_main_v98 val_main_v96 val_main_v95
  exact h

end Cert.ReferenceIdeal.Sage

end
-- ==== Proof.Claims.lean ====
/-
  The two idealized programs compute one function. The kernel program's result buffer ends holding the four-layer
  network `Cert.KernelIdeal.Net.net4` of its launch arrays (mean by the reciprocal, dense layers block by block); the
  reference's result stage is, layer by layer, the same layer function of the same edge columns (mean by the
  quotient, whole matrix products), once its column of clamped in-degrees is identified with the in-degree counted
  into a vector. The two differ only in proofs of side conditions, so from memories that agree on the arguments both
  runs end with equal results. The three frames are the generated ones (the reference's is its generated run with the
  result dropped), and the ideal pass rewrote nothing, so there is nothing to preserve.
-/
import proofs.«136466_j6270652252188_1_alg».proof.Defs
import proofs.«136466_j6270652252188_1_alg».proof.Proof.Gen.Pre_finite_inputs
import proofs.«136466_j6270652252188_1_alg».proof.Proof.Gen.Kernel.Frame
import proofs.«136466_j6270652252188_1_alg».proof.Proof.Gen.KernelIdeal.Frame
import proofs.«136466_j6270652252188_1_alg».proof.Proof.Gen.ReferenceIdeal.Run
import proofs.«136466_j6270652252188_1_alg».proof.Proof.Gen.ReferenceIdeal.Read
import proofs.«136466_j6270652252188_1_alg».proof.Proof.KernelWhole
import proofs.«136466_j6270652252188_1_alg».proof.Proof.KernelNet
import proofs.«136466_j6270652252188_1_alg».proof.Proof.RefLayers

set_option maxRecDepth 16384

noncomputable section

namespace Cert.Proof.Claims

open Idealize.ShloMosaic Idealize.ShloMosaic.TcCoe Idealize.ShloMosaic.ValueIdx Idealize.SL.Sem
open Cert.Sage.Layer

/-- The reference's result stage is the kernel program's network function of the same arrays. -/
theorem ref_result
    (x0 : (⟨Cert.ReferenceIdeal.S100000x128, .f32⟩ : BufTy).Contents (Elt Ideal)) (x1 : (⟨Cert.ReferenceIdeal.S2x600000, .i32⟩ : BufTy).Contents (Elt Ideal))
    (x3 x4 : (⟨Cert.ReferenceIdeal.S128x64, .f32⟩ : BufTy).Contents (Elt Ideal)) (x5 : (⟨Cert.ReferenceIdeal.S64, .f32⟩ : BufTy).Contents (Elt Ideal))
    (x6 x7 : (⟨Cert.ReferenceIdeal.S64x32, .f32⟩ : BufTy).Contents (Elt Ideal)) (x8 : (⟨Cert.ReferenceIdeal.S32, .f32⟩ : BufTy).Contents (Elt Ideal))
    (x9 x10 : (⟨Cert.ReferenceIdeal.S32x16, .f32⟩ : BufTy).Contents (Elt Ideal)) (x11 : (⟨Cert.ReferenceIdeal.S16, .f32⟩ : BufTy).Contents (Elt Ideal))
    (x12 x13 : (⟨Cert.ReferenceIdeal.S16x9, .f32⟩ : BufTy).Contents (Elt Ideal)) (x14 : (⟨Cert.ReferenceIdeal.S9, .f32⟩ : BufTy).Contents (Elt Ideal)) :
    Cert.ReferenceIdeal.Read.val_main_v102 (F := Ideal) x0 x1 x3 x4 x5 x6 x7 x8 x9 x10 x11 x12 x13 x14
      = Cert.KernelIdeal.Net.net4 x0 x1 x3 x4 x5 x6 x7 x8 x9 x10 x11 x12 x13 x14 := by
  have hd0 : ∀ i : Fin 100000, Cert.ReferenceIdeal.Read.val_main_v19 (F := Ideal) x1 (ix2 i (0 : Fin 1)) = Cert.KernelIdeal.Net.deg x1 i :=
    fun i => Cert.ReferenceIdeal.Sage.deg0_eq x1 (Cert.KernelIdeal.scatter_S100000_S600000x1_S600000_n_0_0_1).wf
      Cert.KernelIdeal.Net.zeroVec Cert.KernelIdeal.Net.oneVec Cert.KernelIdeal.Net.oneEdges
      Cert.KernelIdeal.Net.zeroVec_zero Cert.KernelIdeal.Net.oneVec_one Cert.KernelIdeal.Net.oneEdges_one i
  have hd1 : ∀ i : Fin 100000, Cert.ReferenceIdeal.Read.val_main_v44 (F := Ideal) x1 (ix2 i (0 : Fin 1)) = Cert.KernelIdeal.Net.deg x1 i :=
    fun i => Cert.ReferenceIdeal.Sage.deg1_eq x1 (Cert.KernelIdeal.scatter_S100000_S600000x1_S600000_n_0_0_1).wf
      Cert.KernelIdeal.Net.zeroVec Cert.KernelIdeal.Net.oneVec Cert.KernelIdeal.Net.oneEdges
      Cert.KernelIdeal.Net.zeroVec_zero Cert.KernelIdeal.Net.oneVec_one Cert.KernelIdeal.Net.oneEdges_one i
  have hd2 : ∀ i : Fin 100000, Cert.ReferenceIdeal.Read.val_main_v69 (F := Ideal) x1 (ix2 i (0 : Fin 1)) = Cert.KernelIdeal.Net.deg x1 i :=
    fun i => Cert.ReferenceIdeal.Sage.deg2_eq x1 (Cert.KernelIdeal.scatter_S100000_S600000x1_S600000_n_0_0_1).wf
      Cert.KernelIdeal.Net.zeroVec Cert.KernelIdeal.Net.oneVec Cert.KernelIdeal.Net.oneEdges
      Cert.KernelIdeal.Net.zeroVec_zero Cert.KernelIdeal.Net.oneVec_one Cert.KernelIdeal.Net.oneEdges_one i
  have hd3 : ∀ i : Fin 100000, Cert.ReferenceIdeal.Read.val_main_v94 (F := Ideal) x1 (ix2 i (0 : Fin 1)) = Cert.KernelIdeal.Net.deg x1 i :=
    fun i => Cert.ReferenceIdeal.Sage.deg3_eq x1 (Cert.KernelIdeal.scatter_S100000_S600000x1_S600000_n_0_0_1).wf
      Cert.KernelIdeal.Net.zeroVec Cert.KernelIdeal.Net.oneVec Cert.KernelIdeal.Net.oneEdges
      Cert.KernelIdeal.Net.zeroVec_zero Cert.KernelIdeal.Net.oneVec_one Cert.KernelIdeal.Net.oneEdges_one i
  rw [Cert.ReferenceIdeal.Sage.layer3_eq x0 x1 x3 x4 x5 x6 x7 x8 x9 x10 x11 x12 x13 x14 (Cert.KernelIdeal.Net.deg x1) hd3,
    Cert.ReferenceIdeal.Sage.layer2_eq x0 x1 x3 x4 x5 x6 x7 x8 x9 x10 x11 (Cert.KernelIdeal.Net.deg x1) hd2,
    Cert.ReferenceIdeal.Sage.layer1_eq x0 x1 x3 x4 x5 x6 x7 x8 (Cert.KernelIdeal.Net.deg x1) hd1,
    Cert.ReferenceIdeal.Sage.layer0_eq x0 x1 x3 x4 x5 (Cert.KernelIdeal.Net.deg x1) hd0]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the network function of the arguments
    in their result buffers. -/
theorem algebraic : Cert.algebraic_KernelIdeal_ReferenceIdeal := by
  intro m ρ m' ρ' _ hagree
  refine ⟨fun c => Cert.KernelIdeal.Net.net4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Net.w8_out m ρ c), (h c).2⟩) (Cert.KernelIdeal.Whole.run_whole m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v102_eq, ref_result, e0, e1, e3, e4, e5, e6, e7, e8, e9, e10, e11, e12, e13, e14]

end Cert.Proof.Claims

end
-- ==== Proof.lean ====
/-
  A four-layer mean-aggregation graph network over 100000 nodes and 600000 edges (feature widths 128, 64, 32, 16, 9), as a
  kernel program of four pipelined regions among host gathers and scatters, against a plain reference.

  Both programs aggregate, per layer, the rows of the node table at the edges' source words onto the edges' destination
  words and take the mean over the clamped in-degree `d = max (number of edges into the node) 1`; the kernel program
  multiplies the sums by the reciprocal `1 / d` (computed once) and runs the dense part
      sum_k agg (p,k) · Wl (k,c) + sum_k x (p,k) · Wr (k,c) + b c   (then the maximum with zero, except in the last layer)
  on the matrix unit in 50 blocks of 2000 rows with operands narrowed to bf16, while the reference divides by `d` and
  uses whole matrix products. On the extended reals the narrowing is the identity, a block's rows depend only on the
  same rows of the tables, the blocks tile the result, and `y · (1 / d) = y / d` for the positive real `d` at every
  extended real `y` — so both results are one function of the arguments (Proof/Claims.lean). No precondition is used:
  the law holds at the infinities too.

  Proof/LibMeanLayer.lean states the layer and reads both arrangements against it; Proof/KernelLayer0 … 3 read each
  region's result array; Proof/KernelCarry.lean and Proof/KernelNet.lean follow the kernel program's buffers through its
  host stretches; Proof/KernelWhole.lean is its whole run; Proof/RefLayers.lean reads the reference's stages.
-/
import proofs.«136466_j6270652252188_1_alg».proof.Defs
import proofs.«136466_j6270652252188_1_alg».proof.Proof.Gen.Kernel
import proofs.«136466_j6270652252188_1_alg».proof.Proof.Gen.Kernel.Skeleton
import proofs.«136466_j6270652252188_1_alg».proof.Proof.Gen.Kernel.Launch
import proofs.«136466_j6270652252188_1_alg».proof.Proof.Gen.Kernel.Points
import proofs.«136466_j6270652252188_1_alg».proof.Proof.Gen.Kernel.Frame
import proofs.«136466_j6270652252188_1_alg».proof.Proof.Gen.KernelIdeal
import proofs.«136466_j6270652252188_1_alg».proof.Proof.Gen.KernelIdeal.Skeleton
import proofs.«136466_j6270652252188_1_alg».proof.Proof.Gen.KernelIdeal.Launch
import proofs.«136466_j6270652252188_1_alg».proof.Proof.Gen.KernelIdeal.Points
import proofs.«136466_j6270652252188_1_alg».proof.Proof.Gen.KernelIdeal.Frame
import proofs.«136466_j6270652252188_1_alg».proof.Proof.Gen.ReferenceIdeal
import proofs.«136466_j6270652252188_1_alg».proof.Proof.Gen.Pre_finite_inputs
import proofs.«136466_j6270652252188_1_alg».proof.Proof.Gen.ReferenceIdeal.Read
import proofs.«136466_j6270652252188_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
